-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  reducesTo_S_S_d : S_.ReducesTo [] S_

variable [Facts]

def fn {F : FTy → Type} [FloatOps F] (main_arg0 : FVec F S4x4096x2048 .f32) (main_arg1 : FVec F S_ .f32) (main_arg2 : FVec F S_ .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S_ .f32 := Host.absf main_arg1
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S_ .f32 := Host.absf main_arg2
  let main_cst_2 : FVec F S_ .f32 := constant S_ .f32 0x7F800000#32
  let main_v9 : IVec S_ 1 := cmpf .olt main_v8 main_cst_2
  let main_c_3 : IVec S_ 1 := constantI S_ 1 1#1
  let main_v10 : IVec S_ 1 := (fun x v => Host.reduce IntOp.andi x v reducesTo_S_S_d h_S_) main_v9 main_c_3
  let main_v11 : IVec S_ 1 := andi main_v7 main_v10
  main_v11
-- ==== Kernel.lean ====
abbrev S4x4096x2048 : Shape := ⟨3, ![4, 4096, 2048]⟩
abbrev S_ : Shape := ⟨0, ![]⟩
abbrev S4x1x2048 : Shape := ⟨3, ![4, 1, 2048]⟩
abbrev S4x1x1 : Shape := ⟨3, ![4, 1, 1]⟩
abbrev S1x512x2048 : Shape := ⟨3, ![1, 512, 2048]⟩
abbrev S1x1x2048 : Shape := ⟨3, ![1, 1, 2048]⟩
abbrev S1x1x1 : Shape := ⟨3, ![1, 1, 1]⟩
abbrev S1x2048 : Shape := ⟨2, ![1, 2048]⟩
abbrev S1x1 : Shape := ⟨2, ![1, 1]⟩
abbrev S512x2048 : Shape := ⟨2, ![512, 2048]⟩
abbrev S512 : Shape := ⟨1, ![512]⟩
abbrev S512x1 : Shape := ⟨2, ![512, 1]⟩
abbrev S2048 : Shape := ⟨1, ![2048]⟩
abbrev S1 : Shape := ⟨1, ![1]⟩

abbrev nBuf : Space → Nat
  | .hbm => 21
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S_, .f32⟩
  | .hbm, ⟨2, _⟩ => ⟨S_, .f32⟩
  | .hbm, ⟨3, _⟩ => ⟨S4x1x2048, .f32⟩
  | .hbm, ⟨4, _⟩ => ⟨S4x1x1, .f32⟩
  | .hbm, ⟨5, _⟩ => ⟨S4x1x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1x512x2048, .f32⟩
  | .local _ .vmem, ⟨1, _⟩ => ⟨S1x512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x1, .f32⟩
  | .local _ .vmem, ⟨5, _⟩ => ⟨S1x1x1, .f32⟩
  | .local _ .vmem, ⟨6, _⟩ => ⟨S1x2048, .f32⟩
  | .local _ .vmem, ⟨7, _⟩ => ⟨S1x1, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_14 : BitVec 32 := 0#32
  let v31 : BitVec 1 := Scalar.cmpi .ne v30 c0_i32_14
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  reduces_S512x2048_S2048 : S512x2048.Reduces [0] S2048
  shapeCasts_S2048_S1x2048 : S2048.ShapeCasts S1x2048
  reduces_S512x1_S1 : S512x1.Reduces [0] S1
  shapeCasts_S1_S1x1 : S1.ShapeCasts S1x1
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S4x1x2048_S_d0_1_2 : S4x1x2048.ReducesTo [0, 1, 2] S_
  h_S_ : 0 < S_.numel
  reducesTo_S4x1x1_S_d0_1_2 : S4x1x1.ReducesTo [0, 1, 2] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S4x4096x2048.size a
  hwx0_0 : ∀ i : grid0.Coords, EltTy.bits .f32 = 32 ∨ (Rect.block (s := S4x4096x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048.size a ≤ S4x1x2048.size a
  hwx0_1 : ∀ i : grid0.Coords, EltTy.bits .f32 = 32 ∨ (Rect.block (s := S4x1x2048) S1x1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S4x1x1.size a
  hwx0_2 : ∀ i : grid0.Coords, EltTy.bits .f32 = 32 ∨ (Rect.block (s := S4x1x1) S1x1x1.size (cc0_transform_2 i) (hinb0_2 i)).WholeWords (EltTy.packing .f32)

variable [Facts₀]

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1x2048.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S4x4096x4096 : Shape := ⟨3, ![4, 4096, 4096]⟩
abbrev S4096x4096 : Shape := ⟨2, ![4096, 4096]⟩

abbrev nBuf : Space → Nat
  | .hbm => 37
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S_, .f32⟩
  | .hbm, ⟨2, _⟩ => ⟨S_, .f32⟩
  | .hbm, ⟨3, _⟩ => ⟨S4x4096x2048, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S4x4096x2048, .f32⟩
  | .hbm, ⟨12, _⟩ => ⟨S4x4096x2048, .f32⟩
  | .hbm, ⟨13, _⟩ => ⟨S4x4096x4096, .f32⟩
  | .hbm, ⟨14, _⟩ => ⟨S_, .f32⟩
  | .hbm, ⟨15, _⟩ => ⟨S4096x4096, .f32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩

abbrev nD : Nat := 1
abbrev τ : Topo := Topo.v7x

variable {F : FTy → Type} [FloatOps F]

class Facts₀ : Prop where
  reducesTo_S4x4096x2048_S4x4096_d2 : S4x4096x2048.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x2048_0_1_2 : S4x4096x1.BroadcastsInDim S4x4096x2048 (![0, 1, 2] : Fin 3 → Fin S4x4096x2048.rank)
  reducesTo_S4x4096x4096_S4096x4096_d0 : S4x4096x4096.ReducesTo [0] S4096x4096
  bcast_S_S4096x4096 : S_.BroadcastsInDim S4096x4096 (![] : Fin 0 → Fin S4096x4096.rank)
  reducesTo_S4096x4096_S_d0_1 : S4096x4096.ReducesTo [0, 1] S_
  reducesTo_S4x4096x4096_S_d0_1_2 : S4x4096x4096.ReducesTo [0, 1, 2] S_
  dot_S4x4096x2048_S4x4096x2048_S4x4096x4096_2_2_1_1_0_0_wf : DotDims.WF S4x4096x2048 S4x4096x2048 S4x4096x4096 [2] [2] [1] [1] [0] [0]

variable [Facts₀]

def dot_S4x4096x2048_S4x4096x2048_S4x4096x4096_2_2_1_1_0_0 : DotDims S4x4096x2048 S4x4096x2048 S4x4096x4096 where
  lhsContracting := [2]
  rhsContracting := [2]
  lhsNonContracting := [1]
  rhsNonContracting := [1]
  lhsBatch := [0]
  rhsBatch := [0]
  wf := dot_S4x4096x2048_S4x4096x2048_S4x4096x4096_2_2_1_1_0_0_wf

class Facts : Prop extends Facts₀ where

variable [Facts]
-- ==== Proof.Spec.lean ====
/-
  The two programs as formulas of the argument array h : [4, 4096, 2048] over the extended reals.

  Every row (b, i, ·) is scaled by 1 / max (‖row‖, ε):  unit h b i d = h (b, i, d) / den h b i.
  The reference forms every inner product  gram h b i j = ∑ d, unit h b i d * unit h b j d,  adds them all up
  (refTotal) and subtracts the diagonal ones (refDiag: a mask i = j over the sum over the batches).
  The kernel never forms the products: per batch it adds the scaled rows, tile of 512 rows by tile (tileVec, eight
  tiles: vecSum), and beside them the rows' squared lengths over den² (tileDiag, diagSum); afterwards it squares and
  adds the entries of vecSum and subtracts the diagSums (kerCore).
  Both then apply the same scalar tail to that one number (tailConc, tailLam).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The argument array's shape. -/
abbrev SH : Shape := ⟨3, ![4, 4096, 2048]⟩
abbrev S0 : Shape := ⟨0, ![]⟩

/-- The floor under a row's length (the f32 nearest 1e-12). -/
def eps : EReal := Ideal.ofBits .f32 0x2B8CBCCC#32

/-- A row's squared length. -/
def rowSq (h : SH.Idx → EReal) (b : Fin 4) (i : Fin 4096) : EReal :=
  ∑ d : Fin 2048, h (ix3 b i d) * h (ix3 b i d)

/-- What a row is divided by: its length, floored at ε. -/
def den (h : SH.Idx → EReal) (b : Fin 4) (i : Fin 4096) : EReal :=
  max (Ideal.sqrt (rowSq h b i)) eps

/-- The scaled row. -/
def unit (h : SH.Idx → EReal) (b : Fin 4) (i : Fin 4096) (d : Fin 2048) : EReal :=
  Ideal.div (h (ix3 b i d)) (den h b i)

/-! ## The reference -/

/-- The inner product of two scaled rows of one batch. -/
def gram (h : SH.Idx → EReal) (b : Fin 4) (i j : Fin 4096) : EReal :=
  ∑ d : Fin 2048, unit h b i d * unit h b j d

/-- All inner products, added up. -/
def refTotal (h : SH.Idx → EReal) : EReal :=
  ∑ j : (⟨3, ![4, 4096, 4096]⟩ : Shape).Idx, gram h (j 0) (j 1) (j 2)

/-- The diagonal ones: the sum over the batches, kept where the two row numbers agree. -/
def refDiag (h : SH.Idx → EReal) : EReal :=
  ∑ j : (⟨2, ![4096, 4096]⟩ : Shape).Idx, if (j 0).val = (j 1).val then ∑ b : Fin 4, gram h b (j 0) (j 1) else 0

def refCore (h : SH.Idx → EReal) : EReal := refTotal h - refDiag h

/-! ## The kernel -/

/-- Row r of tile s. -/
def row (s : Fin 8) (r : Fin 512) : Fin 4096 := ⟨512 * s.val + r.val, by omega⟩

/-- One tile's sum of scaled rows, coordinate d. -/
def tileVec (h : SH.Idx → EReal) (b : Fin 4) (s : Fin 8) (d : Fin 2048) : EReal :=
  ∑ r : Fin 512, unit h b (row s r) d

/-- One tile's sum of squared lengths over den². -/
def tileDiag (h : SH.Idx → EReal) (b : Fin 4) (s : Fin 8) : EReal :=
  ∑ r : Fin 512, Ideal.div (rowSq h b (row s r)) (den h b (row s r) * den h b (row s r))

/-- The sum of the first n + 1 of eight terms: what an accumulator started at the first term holds after term n. -/
def partialSum (f : Fin 8 → EReal) (n : ℕ) : EReal := ∑ s : Fin 8, if s.val ≤ n then f s else 0

theorem partialSum_zero (f : Fin 8 → EReal) : partialSum f 0 = f 0 := by
  unfold partialSum
  rw [Finset.sum_eq_single (0 : Fin 8)]
  · simp
  · intro s _ hs
    have : ¬ s.val ≤ 0 := fun h => hs (Fin.ext (by simpa using Nat.le_zero.mp h))
    rw [if_neg this]
  · intro h; exact absurd (Finset.mem_univ _) h

theorem partialSum_succ (f : Fin 8 → EReal) (n : ℕ) (hn : n + 1 < 8) :
    partialSum f (n + 1) = partialSum f n + f ⟨n + 1, hn⟩ := by
  unfold partialSum
  have e : ∀ s : Fin 8, (if s.val ≤ n + 1 then f s else 0)
      = (if s.val ≤ n then f s else 0) + (if s = ⟨n + 1, hn⟩ then f s else 0) := by
    intro s
    by_cases h1 : s.val ≤ n
    · have h2 : s ≠ ⟨n + 1, hn⟩ := fun h => by rw [h] at h1; simp at h1
      rw [if_pos (by omega), if_pos h1, if_neg h2, add_zero]
    · by_cases h3 : s = ⟨n + 1, hn⟩
      · rw [if_neg h1, if_pos h3, if_pos (by rw [h3]), zero_add]
      · have : ¬ s.val ≤ n + 1 := fun h => h3 (Fin.ext (by simp; omega))
        rw [if_neg this, if_neg h1, if_neg h3, add_zero]
  rw [Finset.sum_congr rfl fun s _ => e s, Finset.sum_add_distrib, Finset.sum_ite_eq' Finset.univ ⟨n + 1, hn⟩ f]
  simp

theorem partialSum_last (f : Fin 8 → EReal) : partialSum f 7 = ∑ s : Fin 8, f s := by
  unfold partialSum
  exact Finset.sum_congr rfl fun s _ => if_pos (by omega)

/-- A batch's sum of scaled rows. -/
def vecSum (h : SH.Idx → EReal) (b : Fin 4) (d : Fin 2048) : EReal := ∑ s : Fin 8, tileVec h b s d
/-- A batch's sum of squared lengths over den². -/
def diagSum (h : SH.Idx → EReal) (b : Fin 4) : EReal := ∑ s : Fin 8, tileDiag h b s

def kerCore (h : SH.Idx → EReal) : EReal :=
  (∑ j : (⟨3, ![4, 1, 2048]⟩ : Shape).Idx, vecSum h (j 0) (j 2) * vecSum h (j 0) (j 2))
    - (∑ j : (⟨3, ![4, 1, 1]⟩ : Shape).Idx, diagSum h (j 0))

/-! ## The scalar tail both programs share -/

/-- The second result: the core over 4 · 4096 · 4095. -/
def tailConc (core : FVec Ideal S0 .f32) : FVec Ideal S0 .f32 :=
  Host.divf core (constant (F := Ideal) S0 .f32 0x4C7FF000#32)

/-- The first result: the logistic function of a1 · (conc - a2), spelt 1 / (1 + exp (-·)). -/
def tailLam (core a1 a2 : FVec Ideal S0 .f32) : FVec Ideal S0 .f32 :=
  Host.divf (constant (F := Ideal) S0 .f32 0x3F800000#32)
    (addf (constant (F := Ideal) S0 .f32 0x3F800000#32) (Host.exp (Host.negf (mulf a1 (subf (tailConc core) a2)))))

end Cert.Spec

end
-- ==== Proof.RealLaw.lean ====
/-
  The law over the reals that joins the two programs.  For unit-normalised rows x̂ (b, i, ·) of a batch b:
    ∑ i, ∑ j, ∑ d, x̂ i d * x̂ j d = ∑ d, (∑ i, x̂ i d) ^ 2        (the sum of all pairwise inner products)
    ∑ d, (x i d / c) * (x i d / c) = (∑ d, x i d * x i d) / (c * c)   (one diagonal entry, c ≠ 0).
-/
import Mathlib

namespace Cert.RealLaw

open Finset

/-- The sum of all pairwise inner products of a family of vectors is the squared length of their sum,
    coordinate by coordinate. -/
theorem sum_pairs {ι κ : Type*} [Fintype ι] [Fintype κ] (a : ι → κ → ℝ) :
    ∑ i, ∑ j, ∑ d, a i d * a j d = ∑ d, (∑ i, a i d) * (∑ i, a i d) := by
  simp_rw [Finset.sum_mul_sum]
  rw [Finset.sum_comm (γ := κ)]
  refine Finset.sum_congr rfl fun i _ => ?_
  rw [Finset.sum_comm]

/-- A diagonal entry: the inner product of a row scaled by 1/c with itself is the row's squared length over c². -/
theorem sum_div_sq {κ : Type*} [Fintype κ] (x : κ → ℝ) (c : ℝ) :
    ∑ d, (x d / c) * (x d / c) = (∑ d, x d * x d) / (c * c) := by
  rw [Finset.sum_div]
  refine Finset.sum_congr rfl fun d _ => ?_
  rw [div_mul_div_comm]

end Cert.RealLaw
-- ==== Proof.RealLift.lean ====
/-
  Extended-real operations on real arguments are the real operations: a finite sum of reals, the square root of a
  non-negative real, a quotient by a non-zero real; and the floor ε under a row's length is a positive real.
-/
import Idealize.ShloMosaic.PureOps.Ideal
import Mathlib

noncomputable section

namespace Cert.RealLift

open Idealize.ShloMosaic

/-- The coercion ℝ → EReal commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The square root of a non-negative real. -/
theorem sqrt_coe_of_nonneg {r : ℝ} (hr : 0 ≤ r) : Ideal.sqrt (r : EReal) = ((Real.sqrt r : ℝ) : EReal) := by
  rw [Ideal.sqrt_coe, if_neg (not_lt.mpr hr)]

/-- A quotient of reals by a non-zero real. -/
theorem div_coe_coe (a : ℝ) {b : ℝ} (hb : b ≠ 0) : Ideal.div (a : EReal) (b : EReal) = ((a / b : ℝ) : EReal) := by
  rw [Ideal.div_coe hb, ← EReal.coe_mul, mul_one_div]

/-- The floor under a row's length, as a real number. -/
def epsR : ℝ := 9223372 * (2 ^ 63)⁻¹

theorem epsR_pos : 0 < epsR := by unfold epsR; positivity

/-- The f32 nearest 1e-12 is 9223372 / 2^63. -/
theorem eps_eq : Ideal.ofBits .f32 0x2B8CBCCC#32 = (epsR : EReal) := by
  unfold epsR
  simp [Ideal.ofBits, Ideal.ieee, -EReal.coe_mul]

end Cert.RealLift

end
-- ==== Proof.IdxSum.lean ====
/-
  Sums over an array's index set as iterated sums over its coordinates (rank 3), and the 4096 rows of a batch taken
  as eight tiles of 512.
-/
import proofs.«173527_j26010321945257_2_alg».proof.Proof.Spec
import Idealize.ShloMosaic.Lib.ValueIdx
import Mathlib

noncomputable section

namespace Cert.IdxSum

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Row r of tile s is row 512 s + r: tile by tile, the 4096 rows are summed once each. -/
theorem sum_rows {M : Type*} [AddCommMonoid M] (f : Fin 4096 → M) :
    ∑ s : Fin 8, ∑ r : Fin 512, f (Cert.Spec.row s r) = ∑ i : Fin 4096, f i := by
  calc ∑ s : Fin 8, ∑ r : Fin 512, f (Cert.Spec.row s r)
      = ∑ p : Fin 8 × Fin 512, f (finProdFinEquiv (m := 8) (n := 512) p) := by
        rw [Fintype.sum_prod_type]
        refine Finset.sum_congr rfl fun s _ => Finset.sum_congr rfl fun r _ => congrArg f (Fin.ext ?_)
        simp [Cert.Spec.row, finProdFinEquiv]
        omega
    _ = ∑ i : Fin 4096, f i := Equiv.sum_comp (finProdFinEquiv (m := 8) (n := 512)) f

end Cert.IdxSum

end
-- ==== Proof.CoreEq.lean ====
/-
  On finite inputs the kernel's number is the reference's.

  Write x for the real array behind h.  Every row's squared length rsq b i is a non-negative real, its divisor
  dn b i = max (√(rsq b i)) ε is a positive real, so the scaled entries u b i d = x (b, i, d) / dn b i are real, and
  every sum in either formula is a finite sum of reals.  Over ℝ:
    the kernel's first term   ∑ b, ∑ d, (∑ i, u b i d)²        is the reference's   ∑ b, ∑ i, ∑ j, ∑ d, u b i d * u b j d
      (the sum of all pairwise inner products is the squared length of the sum);
    the kernel's second term  ∑ b, ∑ i, rsq b i / dn b i²      is the reference's diagonal  ∑ i, ∑ b, ∑ d, u b i d * u b i d
      (a scaled row's inner product with itself is the row's squared length over the squared divisor).
-/
import proofs.«173527_j26010321945257_2_alg».proof.Proof.Spec
import proofs.«173527_j26010321945257_2_alg».proof.Proof.RealLaw
import proofs.«173527_j26010321945257_2_alg».proof.Proof.RealLift
import proofs.«173527_j26010321945257_2_alg».proof.Proof.IdxSum

noncomputable section

namespace Cert.CoreEq

open Idealize.ShloMosaic Idealize.ShloMosaic.ValueIdx Cert.Spec Cert.RealLift Cert.IdxSum

variable (x : SH.Idx → ℝ)

/-! ## The real quantities -/

def rsq (b : Fin 4) (i : Fin 4096) : ℝ := ∑ d : Fin 2048, x (ix3 b i d) * x (ix3 b i d)
def dn (b : Fin 4) (i : Fin 4096) : ℝ := max (Real.sqrt (rsq x b i)) epsR
def u (b : Fin 4) (i : Fin 4096) (d : Fin 2048) : ℝ := x (ix3 b i d) / dn x b i

theorem rsq_nonneg (b : Fin 4) (i : Fin 4096) : 0 ≤ rsq x b i :=
  Finset.sum_nonneg fun d _ => mul_self_nonneg _

theorem dn_pos (b : Fin 4) (i : Fin 4096) : 0 < dn x b i :=
  lt_of_lt_of_le epsR_pos (le_max_right _ _)

/-! ## The specification's quantities are those reals -/

local notation "hx" => (fun i : SH.Idx => ((x i : ℝ) : EReal))

theorem rowSq_coe (b : Fin 4) (i : Fin 4096) : rowSq hx b i = (rsq x b i : EReal) := by
  unfold rowSq rsq
  rw [coe_sum]
  exact Finset.sum_congr rfl fun d _ => (EReal.coe_mul _ _).symm

theorem den_coe (b : Fin 4) (i : Fin 4096) : den hx b i = (dn x b i : EReal) := by
  unfold den dn
  rw [rowSq_coe, sqrt_coe_of_nonneg (rsq_nonneg x b i)]
  unfold eps
  rw [eps_eq]
  exact (EReal.coe_strictMono.monotone.map_max).symm

theorem unit_coe (b : Fin 4) (i : Fin 4096) (d : Fin 2048) : unit hx b i d = (u x b i d : EReal) := by
  unfold unit u
  rw [den_coe, div_coe_coe _ (dn_pos x b i).ne']

theorem gram_coe (b : Fin 4) (i j : Fin 4096) :
    gram hx b i j = ((∑ d : Fin 2048, u x b i d * u x b j d : ℝ) : EReal) := by
  unfold gram
  rw [coe_sum]
  exact Finset.sum_congr rfl fun d _ => by rw [unit_coe, unit_coe, EReal.coe_mul]

theorem vecSum_coe (b : Fin 4) (d : Fin 2048) : vecSum hx b d = ((∑ i : Fin 4096, u x b i d : ℝ) : EReal) := by
  unfold vecSum tileVec
  rw [← sum_rows (fun i => u x b i d), coe_sum]
  refine Finset.sum_congr rfl fun s _ => ?_
  rw [coe_sum]
  exact Finset.sum_congr rfl fun r _ => unit_coe x b _ d

theorem diagSum_coe (b : Fin 4) :
    diagSum hx b = ((∑ i : Fin 4096, rsq x b i / (dn x b i * dn x b i) : ℝ) : EReal) := by
  unfold diagSum tileDiag
  rw [← sum_rows (fun i => rsq x b i / (dn x b i * dn x b i)), coe_sum]
  refine Finset.sum_congr rfl fun s _ => ?_
  rw [coe_sum]
  refine Finset.sum_congr rfl fun r _ => ?_
  rw [rowSq_coe, den_coe, ← EReal.coe_mul, div_coe_coe _ (mul_pos (dn_pos x b _) (dn_pos x b _)).ne']

/-! ## The two numbers, as reals -/

/-- The kernel's number. -/
def kerR : ℝ :=
  (∑ b : Fin 4, ∑ d : Fin 2048, (∑ i : Fin 4096, u x b i d) * (∑ i : Fin 4096, u x b i d))
    - ∑ b : Fin 4, ∑ i : Fin 4096, rsq x b i / (dn x b i * dn x b i)

/-- The reference's number. -/
def refR : ℝ :=
  (∑ b : Fin 4, ∑ i : Fin 4096, ∑ j : Fin 4096, ∑ d : Fin 2048, u x b i d * u x b j d)
    - ∑ i : Fin 4096, ∑ b : Fin 4, ∑ d : Fin 2048, u x b i d * u x b i d

theorem kerFirst_coe :
    (∑ j : (⟨3, ![4, 1, 2048]⟩ : Shape).Idx, vecSum hx (j 0) (j 2) * vecSum hx (j 0) (j 2))
      = ((∑ b : Fin 4, ∑ d : Fin 2048, (∑ i : Fin 4096, u x b i d) * (∑ i : Fin 4096, u x b i d) : ℝ) : EReal) := by
  refine (sum_idx3 _).trans ?_
  rw [coe_sum]
  refine Finset.sum_congr rfl fun b _ => ?_
  rw [Fin.sum_univ_one, coe_sum]
  refine Finset.sum_congr rfl fun d _ => ?_
  show vecSum hx b d * vecSum hx b d = _
  rw [vecSum_coe, EReal.coe_mul]

theorem kerSecond_coe :
    (∑ j : (⟨3, ![4, 1, 1]⟩ : Shape).Idx, diagSum hx (j 0))
      = ((∑ b : Fin 4, ∑ i : Fin 4096, rsq x b i / (dn x b i * dn x b i) : ℝ) : EReal) := by
  refine (sum_idx3 _).trans ?_
  rw [coe_sum]
  refine Finset.sum_congr rfl fun b _ => ?_
  rw [Fin.sum_univ_one, Fin.sum_univ_one]
  show diagSum hx b = _
  rw [diagSum_coe]

theorem kerCore_coe : kerCore hx = (kerR x : EReal) := by
  unfold kerCore kerR
  rw [kerFirst_coe, kerSecond_coe, EReal.coe_sub]

theorem refTotal_coe :
    refTotal hx = ((∑ b : Fin 4, ∑ i : Fin 4096, ∑ j : Fin 4096, ∑ d : Fin 2048, u x b i d * u x b j d : ℝ) : EReal) := by
  unfold refTotal
  rw [sum_idx3, coe_sum]
  refine Finset.sum_congr rfl fun b _ => ?_
  rw [coe_sum]
  refine Finset.sum_congr rfl fun i _ => ?_
  rw [coe_sum]
  refine Finset.sum_congr rfl fun j _ => ?_
  show gram hx b i j = _
  rw [gram_coe]

theorem refDiag_coe :
    refDiag hx = ((∑ i : Fin 4096, ∑ b : Fin 4, ∑ d : Fin 2048, u x b i d * u x b i d : ℝ) : EReal) := by
  unfold refDiag
  rw [sum_idx2, coe_sum]
  refine Finset.sum_congr rfl fun i _ => ?_
  rw [Finset.sum_eq_single i]
  · show (if i.val = i.val then ∑ b : Fin 4, gram hx b i i else 0) = _
    rw [if_pos rfl, coe_sum]
    exact Finset.sum_congr rfl fun b _ => gram_coe x b i i
  · intro j _ hj
    show (if i.val = j.val then ∑ b : Fin 4, gram hx b i j else 0) = 0
    rw [if_neg fun h => hj (Fin.ext h.symm)]
  · intro h; exact absurd (Finset.mem_univ _) h

theorem refCore_coe : refCore hx = (refR x : EReal) := by
  unfold refCore refR
  rw [refTotal_coe, refDiag_coe, EReal.coe_sub]

/-! ## The law -/

/-- The sum of all pairwise inner products is the squared length of the sum, batch by batch. -/
theorem first_eq :
    (∑ b : Fin 4, ∑ d : Fin 2048, (∑ i : Fin 4096, u x b i d) * (∑ i : Fin 4096, u x b i d))
      = ∑ b : Fin 4, ∑ i : Fin 4096, ∑ j : Fin 4096, ∑ d : Fin 2048, u x b i d * u x b j d :=
  Finset.sum_congr rfl fun b _ => (Cert.RealLaw.sum_pairs (fun i d => u x b i d)).symm

/-- A scaled row's inner product with itself is its squared length over the squared divisor. -/
theorem second_eq :
    (∑ b : Fin 4, ∑ i : Fin 4096, rsq x b i / (dn x b i * dn x b i))
      = ∑ i : Fin 4096, ∑ b : Fin 4, ∑ d : Fin 2048, u x b i d * u x b i d := by
  rw [Finset.sum_comm]
  refine Finset.sum_congr rfl fun i _ => Finset.sum_congr rfl fun b _ => ?_
  exact (Cert.RealLaw.sum_div_sq (fun d => x (ix3 b i d)) (dn x b i)).symm

theorem kerR_eq_refR : kerR x = refR x := by
  unfold kerR refR
  rw [first_eq, second_eq]

/-- On an array of real numbers the kernel's number is the reference's. -/
theorem core_eq (h : SH.Idx → EReal) (hfin : ∀ i, ∃ x : ℝ, h i = (x : EReal)) : kerCore h = refCore h := by
  choose x hx' using hfin
  obtain rfl : h = fun i => ((x i : ℝ) : EReal) := funext hx'
  rw [kerCore_coe, refCore_coe, kerR_eq_refR]

end Cert.CoreEq

end
-- ==== Proof.Finite.lean ====
/-
  From the precondition to: every entry of the first argument is a real number.

  The precondition is the conjunction of three tests "every entry has absolute value below +∞", one per argument.
  The first conjunct, read at an entry x of the first argument, says max x (-x) < ⊤ in the extended reals; of the
  three kinds of extended real, ⊥ and ⊤ both have max x (-x) = ⊤, so x is a real number.
-/
import proofs.«173527_j26010321945257_2_alg».proof.Pre_finite_inputs
import proofs.«173527_j26010321945257_2_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Finite

open Idealize.ShloMosaic Cert.Pre_finite_inputs

/-- The scalar shape has one index. -/
instance : Subsingleton S_.Idx := ⟨fun a b => funext fun d => d.elim0⟩

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- A truth value whose one-bit word is 1 is true. -/
theorem eq_true_of_ofBool {b : Bool} (h : BitVec.ofBool b = 1#1) : b = true := by
  cases b
  · exact absurd h (by decide)
  · rfl

/-- The f32 word 0x7F800000 is +∞. -/
theorem inf_word : Ideal.ofBits .f32 0x7F800000#32 = (⊤ : EReal) := by simp [Ideal.ofBits, Ideal.ieee]

theorem of_pre [Cert.Pre_finite_inputs.Facts] (x0 : FVec Ideal S4x4096x2048 .f32) (x1 x2 : FVec Ideal S_ .f32)
    (h : Cert.Pre_finite_inputs.fn (F := Ideal) x0 x1 x2 = fun _ => 1#1) :
    ∀ i : S4x4096x2048.Idx, ∃ x : ℝ, x0 i = (x : EReal) := by
  intro i
  -- the precondition at its one index, its three conjuncts split, the first one read at the entry i
  have e := congrFun h ValueIdx.ix0
  dsimp only [Cert.Pre_finite_inputs.fn] at e
  have e1 := (IntOp.andi_eq_one.1 (IntOp.andi_eq_one.1 e).1).1
  have e2 := Host.reduce_andi_all _ _ _ _ _ e1 i
  -- that entry of the comparison: |x0 i| < the word of +∞
  have e3 : Ideal.cmp .olt (max (x0 i) (-(x0 i))) (Ideal.ofBits .f32 0x7F800000#32) = 1#1 := e2
  rw [inf_word] at e3
  have e4 : BitVec.ofBool (decide (max (x0 i) (-(x0 i)) < ⊤)) = 1#1 := e3
  exact real_of_abs_lt_top (x0 i) (of_decide_eq_true (eq_true_of_ofBool e4))

end Cert.Finite

end
-- ==== Proof.LibColumnLayout.lean ====
/-
  A column kept as a unit axis, read at an index given by coordinates.

  A reduction over the last axis of an `[a, b]` array that keeps that axis (a row maximum or a row sum with the
  reduced axis retained) produces an `[a]` vector, casts it to the column `[a, 1]` and broadcasts the column back
  over the `b` entries of each row. Two facts say what those two steps do to an entry:
    • the vector cast to a column reads, at `(p, u)`, the vector at `p`, whatever the unit coordinate `u`;
    • the column broadcast over `b` columns reads, at `(p, c)`, the column at `(p, 0)`.
  Both are the general shape-cast and broadcast readings with the coordinates' arithmetic done once.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit
    coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.PayRead.lean ====
/- The kernel body's arithmetic read at an index. -/
import proofs.«173527_j26010321945257_2_alg».proof.Proof.Gen.KernelIdeal.Skeleton
import proofs.«173527_j26010321945257_2_alg».proof.Proof.Spec
import proofs.«173527_j26010321945257_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayRead

open Idealize.ShloMosaic Idealize.ShloMosaic.ValueIdx Cert.KernelIdeal Cert.KernelIdeal.Gen

/-- A block row's squared length. -/
def bRowSq (x0 : Vec Ideal S1x512x2048 .f32) (r : Fin 512) : EReal :=
  ∑ e : Fin 2048, x0 (ix3 0 r e) * x0 (ix3 0 r e)

/-- What a block row is divided by. -/
def bDen (x0 : Vec Ideal S1x512x2048 .f32) (r : Fin 512) : EReal :=
  max (Ideal.sqrt (bRowSq x0 r)) Cert.Spec.eps

/-! ## The three sums the body takes, each over one axis of a matrix -/

/-- The sum along a row of a 512 × 2048 matrix. -/
theorem rowSum_apply (src : FVec Ideal S512x2048 .f32) (r : Fin 512) :
    multiReduction .add [1] S512 src 0x00000000#32 reduces_S512x2048_S512 (.inl rfl) rfl (ix1 r)
      = ∑ e : Fin 2048, src (ix2 r e) := by
  refine (Ideal.multiReduction_add_single src 0x00000000#32 reduces_S512x2048_S512 (.inl rfl) rfl (ix1 r)).trans ?_
  refine Finset.sum_congr rfl fun (e : Fin 2048) _ => congrArg src ?_
  funext a
  match a with
  | ⟨0, _⟩ => exact Fin.ext rfl
  | ⟨1, _⟩ => exact Fin.ext rfl

/-- The sum down a column of a 512 × 2048 matrix. -/
theorem colSum_apply (src : FVec Ideal S512x2048 .f32) (d : Fin 2048) :
    multiReduction .add [0] S2048 src 0x00000000#32 reduces_S512x2048_S2048 (.inl rfl) rfl (ix1 d)
      = ∑ r : Fin 512, src (ix2 r d) := by
  refine (Ideal.multiReduction_add_single src 0x00000000#32 reduces_S512x2048_S2048 (.inl rfl) rfl (ix1 d)).trans ?_
  refine Finset.sum_congr rfl fun (r : Fin 512) _ => congrArg src ?_
  funext a
  match a with
  | ⟨0, _⟩ => exact Fin.ext rfl
  | ⟨1, _⟩ => exact Fin.ext rfl

/-- The sum down the one column of a 512 × 1 matrix. -/
theorem colSum1_apply (src : FVec Ideal S512x1 .f32) (u : Fin 1) :
    multiReduction .add [0] S1 src 0x00000000#32 reduces_S512x1_S1 (.inl rfl) rfl (ix1 u)
      = ∑ r : Fin 512, src (ix2 r u) := by
  refine (Ideal.multiReduction_add_single src 0x00000000#32 reduces_S512x1_S1 (.inl rfl) rfl (ix1 u)).trans ?_
  refine Finset.sum_congr rfl fun (r : Fin 512) _ => congrArg src ?_
  funext a
  match a with
  | ⟨0, _⟩ => exact Fin.ext rfl
  | ⟨1, _⟩ => exact Fin.ext rfl

/-! ## The two zero accumulators -/

theorem pay1_apply (j : S1x2048.Idx) : k0_pay1 (F := Ideal) j = 0 := by
  unfold k0_pay1
  rw [shapeCast_self]
  exact Ideal.ofBits_zero_f32

theorem pay2_apply (j : S1x1.Idx) : k0_pay2 (F := Ideal) j = 0 := by
  unfold k0_pay2
  rw [shapeCast_self]
  exact Ideal.ofBits_zero_f32

/-! ## The block as a matrix, its rows' squared lengths and their divisors -/

/-- The block with its unit axis dropped: entry (r, e) is the block's entry (0, r, e). -/
theorem pay3_apply (x0 : Vec Ideal S1x512x2048 .f32) (r : Fin 512) (e : Fin 2048) :
    k0_pay3 (F := Ideal) x0 (ix2 r e) = x0 (ix3 0 r e) := by
  unfold k0_pay3
  exact shapeCast_1ab_ab_apply x0 _ r e

/-- The column of row sums of squares: entry (r, ·) is row r's squared length. -/
theorem pay4_apply (x0 : Vec Ideal S1x512x2048 .f32) (r : Fin 512) (u : Fin 1) :
    k0_pay4 (F := Ideal) x0 (ix2 r u) = bRowSq x0 r := by
  unfold k0_pay4
  rw [shapeCast_a_a1_apply, rowSum_apply]
  unfold bRowSq
  refine Finset.sum_congr rfl fun e _ => ?_
  rw [mulf_apply, pay3_apply]

/-- The column of divisors: entry (r, ·) is the square root of row r's squared length, floored at ε. -/
theorem pay5_apply (x0 : Vec Ideal S1x512x2048 .f32) (r : Fin 512) (u : Fin 1) :
    k0_pay5 (F := Ideal) x0 (ix2 r u) = bDen x0 r := by
  unfold k0_pay5
  rw [maximumf_apply, broadcast_apply]
  show max (Ideal.sqrt (k0_pay4 (F := Ideal) x0 (ix2 r u))) (Ideal.ofBits .f32 0x2B8CBCCC#32) = _
  rw [pay4_apply]
  rfl

/-! ## The two running sums after a tile, and the two results -/

theorem pay6_apply (x0 : Vec Ideal S1x512x2048 .f32) (xs : Vec Ideal S1x2048 .f32) (d : Fin 2048) :
    k0_pay6 (F := Ideal) x0 xs (ix2 0 d) = xs (ix2 0 d) + ∑ r : Fin 512, Ideal.div (x0 (ix3 0 r d)) (bDen x0 r) := by
  unfold k0_pay6
  rw [shapeCast_self, addf_apply, shapeCast_a_1a_apply, colSum_apply]
  refine congrArg (xs (ix2 0 d) + ·) (Finset.sum_congr rfl fun r _ => ?_)
  rw [divf_apply, pay3_apply, broadcastTo_a1_ab_apply, pay5_apply]

theorem pay7_apply (x0 : Vec Ideal S1x512x2048 .f32) (xs : Vec Ideal S1x1 .f32) :
    k0_pay7 (F := Ideal) x0 xs (ix2 0 0) = xs (ix2 0 0) + ∑ r : Fin 512, Ideal.div (bRowSq x0 r) (bDen x0 r * bDen x0 r) := by
  unfold k0_pay7
  rw [shapeCast_self, addf_apply, shapeCast_a_1a_apply, colSum1_apply]
  refine congrArg (xs (ix2 0 0) + ·) (Finset.sum_congr rfl fun r _ => ?_)
  rw [divf_apply, mulf_apply, pay4_apply, pay5_apply]

theorem pay8_apply (v : Vec Ideal S1x2048 .f32) (d : Fin 2048) : k0_pay8 (F := Ideal) v (ix3 0 0 d) = v (ix2 0 d) := by
  unfold k0_pay8
  exact shapeCast_ab_1ab_apply v _ 0 0 d

theorem pay9_apply (v : Vec Ideal S1x1 .f32) : k0_pay9 (F := Ideal) v (ix3 0 0 0) = v (ix2 0 0) := by
  unfold k0_pay9
  exact shapeCast_ab_1ab_apply v _ 0 0 0

end Cert.KernelIdeal.PayRead

end
-- ==== Proof.PointStep.lean ====
/- What the body of one grid point leaves behind, case by case.

   The body adds the tile's column sums of scaled rows onto the vector accumulator and the tile's sum of
   squared lengths over squared divisors onto the scalar accumulator.  At the first tile of a batch both
   accumulators are zeroed first, so the additions start from zero; at the last tile the two accumulators
   are copied, after the additions, into the two output blocks.  Each lemma below reads the stores the run
   of one case found back as the arithmetic of that case: a whole-buffer store at offset zero leaves its
   payload, and a whole-buffer load of it reads the payload back. -/
import proofs.«173527_j26010321945257_2_alg».proof.Proof.Gen.KernelIdeal.Frame
import Idealize.ShloMosaic.Lib.Pipeline.Value
import Idealize.ShloMosaic.Lib.Tactic

noncomputable section

namespace Cert.KernelArrays

open Idealize.ShloMosaic Idealize.ShloMosaic.TcCoe Idealize.SL.Sem Cert.KernelIdeal Cert.KernelIdeal.Gen

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## First tile of a batch: the accumulators restart from zero -/

/-- The vector accumulator after a first tile: the tile's column sums added onto the zero vector. -/
theorem first_vec (c : Dev nD) (i : grid0.Coords) (arg2 : Memref sig .tc .vmem S1x512x2048 .f32) (harg2 : arg2.IsWhole) (arg3 : Memref sig .tc .vmem S1x1x2048 .f32) (harg3 : arg3.IsWhole) (arg4 : Memref sig .tc .vmem S1x1x1 .f32) (harg4 : arg4.IsWhole) (arg5 : Memref sig .tc .vmem S1x2048 .f32) (harg5 : arg5.IsWhole) (arg6 : Memref sig .tc .vmem S1x1 .f32) (harg6 : arg6.IsWhole) (hc0 : cond0_0 i) (hc1 : ¬cond0_1 i)
    (x0 : Vec F S1x512x2048 .f32) :
    sout0_A_0 c i arg2 harg2 arg3 harg3 arg4 harg4 arg5 harg5 arg6 harg6 hc0 hc1 x0 = k0_pay6 x0 k0_pay1 := by
  unfold sout0_A_0
  rw [View.read_writes_eq_canon _ _ _ (scover0_A_0 c i arg2 harg2 arg3 harg3 arg4 harg4 arg5 harg5 arg6 harg6 hc0 hc1 x0)]
  unfold kernelRun0_A
  dsimp only
  sl_unfold_words
  rw [View.canon_cons_unit_zero (S := S1x2048) zeros2, View.readCov_unit_zero (S := S1x2048) _ zeros2]
  simp only [View.readAt_eq_ld, harg2.read_unread, harg5.read_unread, harg6.read_unread,
    View.ld_unit_zero (S := S1x512x2048) zeros3, View.ld_unit_zero (S := S1x2048) zeros2, View.ld_unit_zero (S := S1x1) zeros2]

/-- The scalar accumulator after a first tile: the tile's sum added onto zero. -/
theorem first_sc (c : Dev nD) (i : grid0.Coords) (arg2 : Memref sig .tc .vmem S1x512x2048 .f32) (harg2 : arg2.IsWhole) (arg3 : Memref sig .tc .vmem S1x1x2048 .f32) (harg3 : arg3.IsWhole) (arg4 : Memref sig .tc .vmem S1x1x1 .f32) (harg4 : arg4.IsWhole) (arg5 : Memref sig .tc .vmem S1x2048 .f32) (harg5 : arg5.IsWhole) (arg6 : Memref sig .tc .vmem S1x1 .f32) (harg6 : arg6.IsWhole) (hc0 : cond0_0 i) (hc1 : ¬cond0_1 i)
    (x0 : Vec F S1x512x2048 .f32) :
    sout0_A_1 c i arg2 harg2 arg3 harg3 arg4 harg4 arg5 harg5 arg6 harg6 hc0 hc1 x0 = k0_pay7 x0 k0_pay2 := by
  unfold sout0_A_1
  rw [View.read_writes_eq_canon _ _ _ (scover0_A_1 c i arg2 harg2 arg3 harg3 arg4 harg4 arg5 harg5 arg6 harg6 hc0 hc1 x0)]
  unfold kernelRun0_A
  dsimp only
  sl_unfold_words
  rw [View.canon_cons_unit_zero (S := S1x1) zeros2, View.readCov_unit_zero (S := S1x1) _ zeros2]
  simp only [View.readAt_eq_ld, harg2.read_unread, harg5.read_unread, harg6.read_unread,
    View.ld_unit_zero (S := S1x512x2048) zeros3, View.ld_unit_zero (S := S1x2048) zeros2, View.ld_unit_zero (S := S1x1) zeros2]

/-! ## A middle tile: the accumulators grow by the tile's sums -/

theorem mid_vec (c : Dev nD) (i : grid0.Coords) (arg2 : Memref sig .tc .vmem S1x512x2048 .f32) (harg2 : arg2.IsWhole) (arg3 : Memref sig .tc .vmem S1x1x2048 .f32) (harg3 : arg3.IsWhole) (arg4 : Memref sig .tc .vmem S1x1x1 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : ¬cond0_1 i)
    (x0 : Vec F S1x512x2048 .f32) (xs0 : Vec F S1x2048 .f32) (xs1 : Vec F S1x1 .f32) :
    sout0_B_0 c i arg2 harg2 arg3 harg3 arg4 harg4 arg5 harg5 arg6 harg6 hc0 hc1 x0 xs0 xs1 = k0_pay6 x0 xs0 := by
  unfold sout0_B_0
  rw [View.read_writes_eq_canon _ _ _ (scover0_B_0 c i arg2 harg2 arg3 harg3 arg4 harg4 arg5 harg5 arg6 harg6 hc0 hc1 x0 xs0 xs1)]
  unfold kernelRun0_B
  dsimp only
  try sl_unfold_words
  rw [View.canon_unit_zero (S := S1x2048) zeros2]
  simp only [View.readAt_eq_ld, harg2.read_unread, harg5.read_unread, harg6.read_unread,
    View.ld_unit_zero (S := S1x512x2048) zeros3, View.ld_unit_zero (S := S1x2048) zeros2, View.ld_unit_zero (S := S1x1) zeros2]

theorem mid_sc (c : Dev nD) (i : grid0.Coords) (arg2 : Memref sig .tc .vmem S1x512x2048 .f32) (harg2 : arg2.IsWhole) (arg3 : Memref sig .tc .vmem S1x1x2048 .f32) (harg3 : arg3.IsWhole) (arg4 : Memref sig .tc .vmem S1x1x1 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : ¬cond0_1 i)
    (x0 : Vec F S1x512x2048 .f32) (xs0 : Vec F S1x2048 .f32) (xs1 : Vec F S1x1 .f32) :
    sout0_B_1 c i arg2 harg2 arg3 harg3 arg4 harg4 arg5 harg5 arg6 harg6 hc0 hc1 x0 xs0 xs1 = k0_pay7 x0 xs1 := by
  unfold sout0_B_1
  rw [View.read_writes_eq_canon _ _ _ (scover0_B_1 c i arg2 harg2 arg3 harg3 arg4 harg4 arg5 harg5 arg6 harg6 hc0 hc1 x0 xs0 xs1)]
  unfold kernelRun0_B
  dsimp only
  try sl_unfold_words
  rw [View.canon_unit_zero (S := S1x1) zeros2]
  simp only [View.readAt_eq_ld, harg2.read_unread, harg5.read_unread, harg6.read_unread,
    View.ld_unit_zero (S := S1x512x2048) zeros3, View.ld_unit_zero (S := S1x2048) zeros2, View.ld_unit_zero (S := S1x1) zeros2]

/-! ## Last tile of a batch: the accumulators grow, then are copied out -/

theorem last_vec (c : Dev nD) (i : grid0.Coords) (arg2 : Memref sig .tc .vmem S1x512x2048 .f32) (harg2 : arg2.IsWhole) (arg3 : Memref sig .tc .vmem S1x1x2048 .f32) (harg3 : arg3.IsWhole) (arg4 : Memref sig .tc .vmem S1x1x1 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : cond0_1 i)
    (x0 : Vec F S1x512x2048 .f32) (xs0 : Vec F S1x2048 .f32) (xs1 : Vec F S1x1 .f32) :
    sout0_C_0 c i arg2 harg2 arg3 harg3 arg4 harg4 arg5 harg5 arg6 harg6 hc0 hc1 x0 xs0 xs1 = k0_pay6 x0 xs0 := by
  unfold sout0_C_0
  rw [View.read_writes_eq_canon _ _ _ (scover0_C_0 c i arg2 harg2 arg3 harg3 arg4 harg4 arg5 harg5 arg6 harg6 hc0 hc1 x0 xs0 xs1)]
  unfold kernelRun0_C
  dsimp only
  try sl_unfold_words
  rw [View.canon_unit_zero (S := S1x2048) zeros2]
  simp only [View.readAt_eq_ld, harg2.read_unread, harg5.read_unread, harg6.read_unread,
    View.ld_unit_zero (S := S1x512x2048) zeros3, View.ld_unit_zero (S := S1x2048) zeros2, View.ld_unit_zero (S := S1x1) zeros2]

theorem last_sc (c : Dev nD) (i : grid0.Coords) (arg2 : Memref sig .tc .vmem S1x512x2048 .f32) (harg2 : arg2.IsWhole) (arg3 : Memref sig .tc .vmem S1x1x2048 .f32) (harg3 : arg3.IsWhole) (arg4 : Memref sig .tc .vmem S1x1x1 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : cond0_1 i)
    (x0 : Vec F S1x512x2048 .f32) (xs0 : Vec F S1x2048 .f32) (xs1 : Vec F S1x1 .f32) :
    sout0_C_1 c i arg2 harg2 arg3 harg3 arg4 harg4 arg5 harg5 arg6 harg6 hc0 hc1 x0 xs0 xs1 = k0_pay7 x0 xs1 := by
  unfold sout0_C_1
  rw [View.read_writes_eq_canon _ _ _ (scover0_C_1 c i arg2 harg2 arg3 harg3 arg4 harg4 arg5 harg5 arg6 harg6 hc0 hc1 x0 xs0 xs1)]
  unfold kernelRun0_C
  dsimp only
  try sl_unfold_words
  rw [View.canon_unit_zero (S := S1x1) zeros2]
  simp only [View.readAt_eq_ld, harg2.read_unread, harg5.read_unread, harg6.read_unread,
    View.ld_unit_zero (S := S1x512x2048) zeros3, View.ld_unit_zero (S := S1x2048) zeros2, View.ld_unit_zero (S := S1x1) zeros2]

/-- The first output's block after a last tile: the grown vector accumulator, with a leading unit axis. -/
theorem last_out1 (c : Dev nD) (i : grid0.Coords) (arg2 : Memref sig .tc .vmem S1x512x2048 .f32) (harg2 : arg2.IsWhole) (arg3 : Memref sig .tc .vmem S1x1x2048 .f32) (harg3 : arg3.IsWhole) (arg4 : Memref sig .tc .vmem S1x1x1 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : cond0_1 i)
    (x0 : Vec F S1x512x2048 .f32) (xs0 : Vec F S1x2048 .f32) (xs1 : Vec F S1x1 .f32) :
    out0_C_1 c i arg2 harg2 arg3 harg3 arg4 harg4 arg5 harg5 arg6 harg6 hc0 hc1 x0 xs0 xs1 = k0_pay8 (k0_pay6 x0 xs0) := by
  unfold out0_C_1
  rw [View.read_writes_eq_canon _ _ _ (cover0_C_1 c i arg2 harg2 arg3 harg3 arg4 harg4 arg5 harg5 arg6 harg6 hc0 hc1 x0 xs0 xs1)]
  unfold kernelRun0_C
  dsimp only
  sl_unfold_words
  rw [View.canon_unit_zero (S := S1x1x2048) zeros3, View.readCov_unit_zero (S := S1x2048) _ zeros2]
  simp only [View.readAt_eq_ld, harg2.read_unread, harg5.read_unread, harg6.read_unread,
    View.ld_unit_zero (S := S1x512x2048) zeros3, View.ld_unit_zero (S := S1x2048) zeros2, View.ld_unit_zero (S := S1x1) zeros2]

/-- The second output's block after a last tile: the grown scalar accumulator, with a leading unit axis. -/
theorem last_out2 (c : Dev nD) (i : grid0.Coords) (arg2 : Memref sig .tc .vmem S1x512x2048 .f32) (harg2 : arg2.IsWhole) (arg3 : Memref sig .tc .vmem S1x1x2048 .f32) (harg3 : arg3.IsWhole) (arg4 : Memref sig .tc .vmem S1x1x1 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : cond0_1 i)
    (x0 : Vec F S1x512x2048 .f32) (xs0 : Vec F S1x2048 .f32) (xs1 : Vec F S1x1 .f32) :
    out0_C_2 c i arg2 harg2 arg3 harg3 arg4 harg4 arg5 harg5 arg6 harg6 hc0 hc1 x0 xs0 xs1 = k0_pay9 (k0_pay7 x0 xs1) := by
  unfold out0_C_2
  rw [View.read_writes_eq_canon _ _ _ (cover0_C_2 c i arg2 harg2 arg3 harg3 arg4 harg4 arg5 harg5 arg6 harg6 hc0 hc1 x0 xs0 xs1)]
  unfold kernelRun0_C
  dsimp only
  sl_unfold_words
  rw [View.canon_unit_zero (S := S1x1x1) zeros3, View.readCov_unit_zero (S := S1x1) _ zeros2]
  simp only [View.readAt_eq_ld, harg2.read_unread, harg5.read_unread, harg6.read_unread,
    View.ld_unit_zero (S := S1x512x2048) zeros3, View.ld_unit_zero (S := S1x2048) zeros2, View.ld_unit_zero (S := S1x1) zeros2]

end Cert.KernelArrays

end
-- ==== Proof.PointChain.lean ====
/- The accumulators from one grid point to the next, and the output blocks at a batch's last tile.

   After the first tile of a batch the accumulators hold that tile's sums added onto zero; after any later tile
   they hold the tile's sums added onto what the tile before left; and at the last tile of a batch each output
   block is a copy of its accumulator as that tile leaves it. -/
import proofs.«173527_j26010321945257_2_alg».proof.Proof.PointStep

noncomputable section

namespace Cert.KernelArrays

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

/-- After a batch's first tile: the tile's sums onto zero. -/
theorem chain_first (c : Dev nD) (t : Fin cfg0.N) (h0 : t.val % 8 = 0) :
    (outsAt0 m c t.val t.isLt).2.2.1 = k0_pay6 (iblk m c 0 t) k0_pay1
    ∧ (outsAt0 m c t.val t.isLt).2.2.2 = k0_pay7 (iblk m c 0 t) k0_pay2 := by
  have h1 : ¬t.val % 8 = 7 := by omega
  rw [outsAt0_A m c t h0 h1]
  dsimp only
  exact ⟨first_vec (F := F) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t),
    first_sc (F := F) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t)⟩

/-- After any later tile: the tile's sums onto what the tile before left. -/
theorem chain_next (c : Dev nD) (t : Fin cfg0.N) (h0 : ¬t.val % 8 = 0) :
    (outsAt0 m c t.val t.isLt).2.2.1 = k0_pay6 (iblk m c 0 t) (outsAt0 m c (t.val - 1) (Nat.lt_of_le_of_lt (Nat.sub_le _ _) t.isLt)).2.2.1
    ∧ (outsAt0 m c t.val t.isLt).2.2.2 = k0_pay7 (iblk m c 0 t) (outsAt0 m c (t.val - 1) (Nat.lt_of_le_of_lt (Nat.sub_le _ _) t.isLt)).2.2.2 := by
  by_cases h1 : t.val % 8 = 7
  · rw [outsAt0_C m c t h0 h1]
    dsimp only
    exact ⟨last_vec (F := F) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (outsAt0 m c (t.val - 1) (Nat.lt_of_le_of_lt (Nat.sub_le _ _) t.isLt)).2.2.1 (outsAt0 m c (t.val - 1) (Nat.lt_of_le_of_lt (Nat.sub_le _ _) t.isLt)).2.2.2,
      last_sc (F := F) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (outsAt0 m c (t.val - 1) (Nat.lt_of_le_of_lt (Nat.sub_le _ _) t.isLt)).2.2.1 (outsAt0 m c (t.val - 1) (Nat.lt_of_le_of_lt (Nat.sub_le _ _) t.isLt)).2.2.2⟩
  · rw [outsAt0_B m c t h0 h1]
    dsimp only
    exact ⟨mid_vec (F := F) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.2.1 (outsAt0 m c (t.val - 1) (Nat.lt_of_le_of_lt (Nat.sub_le _ _) t.isLt)).2.2.2,
      mid_sc (F := F) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.2.1 (outsAt0 m c (t.val - 1) (Nat.lt_of_le_of_lt (Nat.sub_le _ _) t.isLt)).2.2.2⟩

/-- At a batch's last tile each output block is a copy of its accumulator. -/
theorem chain_out (c : Dev nD) (t : Fin cfg0.N) (h1 : t.val % 8 = 7) :
    (outsAt0 m c t.val t.isLt).1 = k0_pay8 (outsAt0 m c t.val t.isLt).2.2.1
    ∧ (outsAt0 m c t.val t.isLt).2.1 = k0_pay9 (outsAt0 m c t.val t.isLt).2.2.2 := by
  have h0 : ¬t.val % 8 = 0 := by omega
  rw [outsAt0_C m c t h0 h1]
  dsimp only
  exact ⟨(last_out1 (F := F) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (outsAt0 m c (t.val - 1) (Nat.lt_of_le_of_lt (Nat.sub_le _ _) t.isLt)).2.2.1 (outsAt0 m c (t.val - 1) (Nat.lt_of_le_of_lt (Nat.sub_le _ _) t.isLt)).2.2.2).trans
      (congrArg k0_pay8 (last_vec (F := F) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (outsAt0 m c (t.val - 1) (Nat.lt_of_le_of_lt (Nat.sub_le _ _) t.isLt)).2.2.1 (outsAt0 m c (t.val - 1) (Nat.lt_of_le_of_lt (Nat.sub_le _ _) t.isLt)).2.2.2).symm),
    (last_out2 (F := F) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (outsAt0 m c (t.val - 1) (Nat.lt_of_le_of_lt (Nat.sub_le _ _) t.isLt)).2.2.1 (outsAt0 m c (t.val - 1) (Nat.lt_of_le_of_lt (Nat.sub_le _ _) t.isLt)).2.2.2).trans
      (congrArg k0_pay9 (last_sc (F := F) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (outsAt0 m c (t.val - 1) (Nat.lt_of_le_of_lt (Nat.sub_le _ _) t.isLt)).2.2.1 (outsAt0 m c (t.val - 1) (Nat.lt_of_le_of_lt (Nat.sub_le _ _) t.isLt)).2.2.2).symm)⟩

end Cert.KernelArrays

end
-- ==== Proof.BlockRows.lean ====
/- Which entries of the argument a grid point's input block holds.

   The grid is 4 batches by 8 tiles, walked batch by batch: point t is tile t mod 8 of batch t div 8.  Its input
   block is the 512 consecutive rows of that tile, all 2048 columns: entry (0, r, e) of the block is entry
   (t div 8, 512 (t mod 8) + r, e) of the argument.  An entry of a block sits at block index times block size plus
   the coordinate inside the block, axis by axis; the block indices are decided once over the 32 points. -/
import proofs.«173527_j26010321945257_2_alg».proof.Proof.Gen.KernelIdeal.Frame
import proofs.«173527_j26010321945257_2_alg».proof.Proof.Spec
import Idealize.ShloMosaic.Lib.Pipeline.Value
import Idealize.ShloMosaic.Lib.ValueIdx
import Idealize.ShloMosaic.Lib.Tactic

noncomputable section

namespace Cert.KernelArrays

open Idealize.ShloMosaic Idealize.ShloMosaic.TcCoe Idealize.ShloMosaic.ValueIdx Idealize.SL.Sem Cert.KernelIdeal Cert.KernelIdeal.Gen

variable {F : FTy → Type} [FloatOps F]
variable (m : (ℓ : Loc nD τ sig) → Buf (Elt F) ℓ)

/-- The input window's block index at point t: (batch, tile, 0). -/
theorem in_index : ∀ t : Fin cfg0.N, win0_0.index t (0 : Fin 3) = t.val / 8 ∧ win0_0.index t (1 : Fin 3) = t.val % 8
    ∧ win0_0.index t (2 : Fin 3) = 0 :=
  (by decide +kernel : ∀ t : Fin grid0.N, _)

/-- Entry (0, r, e) of point t's input block is entry k of the argument, where k = (t div 8, 512 (t mod 8) + r, e). -/
theorem block_entry (c : Dev nD) (t : Fin cfg0.N) (r : Fin 512) (e : Fin 2048) (k : S4x4096x2048.Idx)
    (hk0 : (k 0).val = t.val / 8) (hk1 : (k 1).val = 512 * (t.val % 8) + r.val) (hk2 : (k 2).val = e.val) :
    (iblk m c 0 t : Vec F S1x512x2048 .f32) (ix3 0 r e) = (V m c main_arg0 : S4x4096x2048.Idx → Elt F .f32) k := by
  obtain ⟨i0, i1, i2⟩ := in_index t
  unfold iblk
  rw [View.read_apply]
  show V m c main_arg0 _ = V m c main_arg0 _
  congr 1
  funext a
  apply Fin.ext
  match a with
  | ⟨0, _⟩ => show win0_0.index t (0 : Fin 3) * 1 + 1 * 0 = (k 0).val; rw [i0, hk0]; omega
  | ⟨1, _⟩ => show win0_0.index t (1 : Fin 3) * 512 + 1 * r.val = (k 1).val; rw [i1, hk1]; omega
  | ⟨2, _⟩ => show win0_0.index t (2 : Fin 3) * 2048 + 1 * e.val = (k 2).val; rw [i2, hk2]; omega

end Cert.KernelArrays

end
-- ==== Proof.TileSums.lean ====
/- One tile's contribution, read against the specification.

   When a block holds rows 512 s … 512 s + 511 of batch b of the argument, a block row's squared length and divisor
   are those of the argument's row, so the block's column sums of scaled rows are the specification's sums for tile s,
   and the block's sum of squared lengths over squared divisors is the specification's as well: the sums agree term
   by term. -/
import proofs.«173527_j26010321945257_2_alg».proof.Proof.Spec
import proofs.«173527_j26010321945257_2_alg».proof.Proof.PayRead

noncomputable section

namespace Cert.KernelArrays

open Idealize.ShloMosaic Idealize.ShloMosaic.ValueIdx Cert.KernelIdeal Cert.KernelIdeal.Gen Cert.KernelIdeal.PayRead

variable (x0 : Vec Ideal S1x512x2048 .f32) (h : Cert.Spec.SH.Idx → EReal) (b : Fin 4) (s : Fin 8)

theorem tile_rowSq (hx : ∀ (r : Fin 512) (e : Fin 2048), x0 (ix3 0 r e) = h (ix3 b (Cert.Spec.row s r) e)) (r : Fin 512) :
    bRowSq x0 r = Cert.Spec.rowSq h b (Cert.Spec.row s r) := by
  unfold bRowSq Cert.Spec.rowSq
  exact Finset.sum_congr rfl fun e _ => by rw [hx r e]

theorem tile_den (hx : ∀ (r : Fin 512) (e : Fin 2048), x0 (ix3 0 r e) = h (ix3 b (Cert.Spec.row s r) e)) (r : Fin 512) :
    bDen x0 r = Cert.Spec.den h b (Cert.Spec.row s r) := by
  unfold bDen Cert.Spec.den
  rw [tile_rowSq x0 h b s hx r]

/-- The block's column sum of scaled rows, column d, is the specification's tile sum. -/
theorem tile_vec (hx : ∀ (r : Fin 512) (e : Fin 2048), x0 (ix3 0 r e) = h (ix3 b (Cert.Spec.row s r) e)) (d : Fin 2048) :
    ∑ r : Fin 512, Ideal.div (x0 (ix3 0 r d)) (bDen x0 r) = Cert.Spec.tileVec h b s d := by
  unfold Cert.Spec.tileVec Cert.Spec.unit
  exact Finset.sum_congr rfl fun r _ => by rw [hx r d, tile_den x0 h b s hx r]

/-- The block's sum of squared lengths over squared divisors is the specification's. -/
theorem tile_diag (hx : ∀ (r : Fin 512) (e : Fin 2048), x0 (ix3 0 r e) = h (ix3 b (Cert.Spec.row s r) e)) :
    ∑ r : Fin 512, Ideal.div (bRowSq x0 r) (bDen x0 r * bDen x0 r) = Cert.Spec.tileDiag h b s := by
  unfold Cert.Spec.tileDiag
  exact Finset.sum_congr rfl fun r _ => by rw [tile_rowSq x0 h b s hx r, tile_den x0 h b s hx r]

/-- The vector accumulator's update at column d: what it held plus the tile's sum. -/
theorem vec_update (hx : ∀ (r : Fin 512) (e : Fin 2048), x0 (ix3 0 r e) = h (ix3 b (Cert.Spec.row s r) e))
    (xs : Vec Ideal S1x2048 .f32) (d : Fin 2048) :
    k0_pay6 (F := Ideal) x0 xs (ix2 0 d) = xs (ix2 0 d) + Cert.Spec.tileVec h b s d :=
  (pay6_apply x0 xs d).trans (congrArg (fun z => xs (ix2 0 d) + z) (tile_vec x0 h b s hx d))

/-- The scalar accumulator's update: what it held plus the tile's sum. -/
theorem sc_update (hx : ∀ (r : Fin 512) (e : Fin 2048), x0 (ix3 0 r e) = h (ix3 b (Cert.Spec.row s r) e))
    (ys : Vec Ideal S1x1 .f32) :
    k0_pay7 (F := Ideal) x0 ys (ix2 0 0) = ys (ix2 0 0) + Cert.Spec.tileDiag h b s :=
  (pay7_apply x0 ys).trans (congrArg (fun z => ys (ix2 0 0) + z) (tile_diag x0 h b s hx))

end Cert.KernelArrays

end
-- ==== Proof.Accumulated.lean ====
/- The accumulators after every grid point, and the output blocks at a batch's last tile.

   Walking a batch's eight tiles in order, the vector accumulator holds after tile n the sum of the first n + 1 tiles'
   column sums of scaled rows, and the scalar accumulator the sum of the first n + 1 tiles' sums of squared lengths over
   squared divisors: the first tile starts both from zero, every later tile adds its own sums to what the tile before
   left.  After the eighth tile these are the whole batch's sums, and the two output blocks are copies of them. -/
import proofs.«173527_j26010321945257_2_alg».proof.Proof.PointChain
import proofs.«173527_j26010321945257_2_alg».proof.Proof.BlockRows
import proofs.«173527_j26010321945257_2_alg».proof.Proof.TileSums

noncomputable section

namespace Cert.KernelArrays

open Idealize.ShloMosaic Idealize.ShloMosaic.TcCoe Idealize.ShloMosaic.ValueIdx Idealize.SL.Sem
open Cert.KernelIdeal Cert.KernelIdeal.Gen Cert.KernelIdeal.PayRead

variable (m : (ℓ : Loc nD τ sig) → Buf (Elt Ideal) ℓ)

/-- One point's two updates against the specification: the point is tile s of batch b. -/
theorem point_update (c : Dev nD) (t : Fin cfg0.N) (b : Fin 4) (s : Fin 8) (hb : b.val = t.val / 8) (hs : s.val = t.val % 8)
    (xs : Vec Ideal S1x2048 .f32) (ys : Vec Ideal S1x1 .f32) :
    (∀ d : Fin 2048, k0_pay6 (F := Ideal) (iblk m c 0 t) xs (ix2 0 d)
        = xs (ix2 0 d) + Cert.Spec.tileVec (V m c main_arg0) b s d)
    ∧ k0_pay7 (F := Ideal) (iblk m c 0 t) ys (ix2 0 0) = ys (ix2 0 0) + Cert.Spec.tileDiag (V m c main_arg0) b s := by
  have hx : ∀ (r : Fin 512) (e : Fin 2048), (iblk m c 0 t : Vec Ideal S1x512x2048 .f32) (ix3 0 r e)
      = (V m c main_arg0 : Cert.Spec.SH.Idx → EReal) (ix3 b (Cert.Spec.row s r) e) :=
    fun r e => block_entry m c t r e (ix3 b (Cert.Spec.row s r) e) hb (by show 512 * s.val + r.val = _; rw [hs]) rfl
  exact ⟨fun d => vec_update (iblk m c 0 t) (V m c main_arg0) b s hx xs d,
    sc_update (iblk m c 0 t) (V m c main_arg0) b s hx ys⟩

/-- After a batch's first tile the accumulators hold that tile's sums. -/
theorem acc_first (c : Dev nD) (t : Fin cfg0.N) (h0 : t.val % 8 = 0) (b : Fin 4) (hb : b.val = t.val / 8) :
    (∀ d : Fin 2048, (outsAt0 m c t.val t.isLt).2.2.1 (ix2 0 d)
        = Cert.Spec.partialSum (fun s => Cert.Spec.tileVec (V m c main_arg0) b s d) 0)
    ∧ (outsAt0 m c t.val t.isLt).2.2.2 (ix2 0 0)
        = Cert.Spec.partialSum (fun s => Cert.Spec.tileDiag (V m c main_arg0) b s) 0 := by
  obtain ⟨e1, e2⟩ := chain_first m c t h0
  obtain ⟨u1, u2⟩ := point_update m c t b 0 hb h0.symm (k0_pay1 (F := Ideal)) (k0_pay2 (F := Ideal))
  refine ⟨fun d => ?_, ?_⟩
  · refine (congrFun e1 (ix2 0 d)).trans ((u1 d).trans ?_)
    rw [pay1_apply, zero_add, Cert.Spec.partialSum_zero]
  · refine (congrFun e2 (ix2 0 0)).trans (u2.trans ?_)
    rw [pay2_apply, zero_add, Cert.Spec.partialSum_zero]

/-- After tile n mod 8 of batch n div 8 the accumulators hold the sums of that batch's tiles 0 … n mod 8. -/
theorem acc_inv (c : Dev nD) : ∀ (n : ℕ) (hn : n < cfg0.N) (b : Fin 4), b.val = n / 8 →
    (∀ d : Fin 2048, (outsAt0 m c n hn).2.2.1 (ix2 0 d)
        = Cert.Spec.partialSum (fun s => Cert.Spec.tileVec (V m c main_arg0) b s d) (n % 8))
    ∧ (outsAt0 m c n hn).2.2.2 (ix2 0 0)
        = Cert.Spec.partialSum (fun s => Cert.Spec.tileDiag (V m c main_arg0) b s) (n % 8) := by
  intro n
  induction n with
  | zero =>
    intro hn b hb
    exact acc_first m c ⟨0, hn⟩ (Nat.zero_mod 8) b hb
  | succ k ih =>
    intro hn b hb
    have hN : k + 1 < 32 := lt_of_lt_of_eq hn (show cfg0.N = 32 from N_0)
    by_cases h0 : (k + 1) % 8 = 0
    · rw [h0]
      exact acc_first m c ⟨k + 1, hn⟩ h0 b hb
    · have hm : (k + 1) % 8 = k % 8 + 1 := by omega
      have hlt : k % 8 + 1 < 8 := by omega
      obtain ⟨e1, e2⟩ := chain_next m c ⟨k + 1, hn⟩ h0
      obtain ⟨i1, i2⟩ := ih (Nat.lt_of_succ_lt hn) b (by omega)
      obtain ⟨u1, u2⟩ := point_update m c ⟨k + 1, hn⟩ b ⟨k % 8 + 1, hlt⟩ hb hm.symm
        (outsAt0 m c k (Nat.lt_of_succ_lt hn)).2.2.1 (outsAt0 m c k (Nat.lt_of_succ_lt hn)).2.2.2
      rw [hm]
      refine ⟨fun d => ?_, ?_⟩
      · refine (congrFun e1 (ix2 0 d)).trans ((u1 d).trans ?_)
        rw [Cert.Spec.partialSum_succ _ (k % 8) hlt, i1 d]
      · refine (congrFun e2 (ix2 0 0)).trans (u2.trans ?_)
        rw [Cert.Spec.partialSum_succ _ (k % 8) hlt, i2]

/-- At a batch's last tile the output blocks hold the batch's two sums. -/
theorem out_vals (c : Dev nD) (t : Fin cfg0.N) (h1 : t.val % 8 = 7) (b : Fin 4) (hb : b.val = t.val / 8) :
    (∀ d : Fin 2048, (outsAt0 m c t.val t.isLt).1 (ix3 0 0 d) = Cert.Spec.vecSum (V m c main_arg0) b d)
    ∧ (outsAt0 m c t.val t.isLt).2.1 (ix3 0 0 0) = Cert.Spec.diagSum (V m c main_arg0) b := by
  obtain ⟨o1, o2⟩ := chain_out m c t h1
  obtain ⟨i1, i2⟩ := acc_inv m c t.val t.isLt b hb
  rw [h1] at i1 i2
  refine ⟨fun d => ?_, ?_⟩
  · refine (congrFun o1 (ix3 0 0 d)).trans ((pay8_apply _ d).trans ((i1 d).trans ?_))
    exact Cert.Spec.partialSum_last _
  · refine (congrFun o2 (ix3 0 0 0)).trans ((pay9_apply _).trans (i2.trans ?_))
    exact Cert.Spec.partialSum_last _

end Cert.KernelArrays

end
-- ==== Proof.KernelArrays.lean ====
/- What the two output arrays hold after the region.

   Each batch's last tile writes the batch's two sums into its output blocks, and only there are the blocks written back:
   block b of the first output array receives the batch's sum of scaled rows, block b of the second the batch's sum of
   squared lengths over squared divisors.  The four written blocks tile each array, so the arrays are these sums, batch
   by batch. -/
import proofs.«173527_j26010321945257_2_alg».proof.Proof.Gen.KernelIdeal.Frame
import proofs.«173527_j26010321945257_2_alg».proof.Proof.Spec
import proofs.«173527_j26010321945257_2_alg».proof.Proof.PayRead
import proofs.«173527_j26010321945257_2_alg».proof.Proof.Accumulated
import Idealize.ShloMosaic.Lib.Pipeline.Value
import Idealize.ShloMosaic.Lib.Tactic

noncomputable section

namespace Cert.KernelArrays

open Idealize.ShloMosaic Idealize.ShloMosaic.TcCoe Idealize.SL.Sem Cert.KernelIdeal Cert.KernelIdeal.Gen
open Idealize.ShloMosaic.ValueIdx

/-- The first output: per batch, the sum of the scaled rows. -/
def G1 (h : Cert.Spec.SH.Idx → EReal) : Vec Ideal S4x1x2048 .f32 := fun j => Cert.Spec.vecSum h (j 0) (j 2)
/-- The second output: per batch, the sum of the rows' squared lengths over the squared divisors. -/
def G2 (h : Cert.Spec.SH.Idx → EReal) : Vec Ideal S4x1x1 .f32 := fun j => Cert.Spec.diagSum h (j 0)

/-! ## The output blocks at a batch's last tile, as entries of the two arrays -/

/-- Entry y of the first output's block at the last tile of batch t div 8 is entry i of the array's value, for the
    array index i with the batch as first coordinate and y's column as last. -/
theorem out1_at (m : (ℓ : Loc nD τ sig) → Buf (Elt Ideal) ℓ) (c : Dev nD) (t : Fin cfg0.N) (h1 : t.val % 8 = 7)
    (y : S1x1x2048.Idx) (i : S4x1x2048.Idx) (hi0 : (i 0).val = t.val / 8) (hi2 : (i 2).val = (y 2).val) :
    (outsAt0 m c t.val t.isLt).1 y = G1 (V m c main_arg0) i := by
  have y0 : (y 0).val < 1 := (y 0).isLt
  have y1 : (y 1).val < 1 := (y 1).isLt
  have e : y = ix3 0 0 (y 2) := by
    funext a
    match a with
    | ⟨0, _⟩ => exact Fin.ext (by show (y 0).val = 0; omega)
    | ⟨1, _⟩ => exact Fin.ext (by show (y 1).val = 0; omega)
    | ⟨2, _⟩ => rfl
  have e2 : i 2 = y 2 := Fin.ext hi2
  unfold G1
  rw [e2]
  exact (congrArg (outsAt0 m c t.val t.isLt).1 e).trans ((out_vals m c t h1 (i 0) hi0).1 (y 2))

/-- The one entry of the second output's block at the last tile of batch t div 8 is the array's value at that batch. -/
theorem out2_at (m : (ℓ : Loc nD τ sig) → Buf (Elt Ideal) ℓ) (c : Dev nD) (t : Fin cfg0.N) (h1 : t.val % 8 = 7)
    (y : S1x1x1.Idx) (i : S4x1x1.Idx) (hi0 : (i 0).val = t.val / 8) :
    (outsAt0 m c t.val t.isLt).2.1 y = G2 (V m c main_arg0) i := by
  have y0 : (y 0).val < 1 := (y 0).isLt
  have y1 : (y 1).val < 1 := (y 1).isLt
  have y2 : (y 2).val < 1 := (y 2).isLt
  have e : y = ix3 0 0 0 := by
    funext a
    match a with
    | ⟨0, _⟩ => exact Fin.ext (by show (y 0).val = 0; omega)
    | ⟨1, _⟩ => exact Fin.ext (by show (y 1).val = 0; omega)
    | ⟨2, _⟩ => exact Fin.ext (by show (y 2).val = 0; omega)
  unfold G2
  exact (congrArg (outsAt0 m c t.val t.isLt).2.1 e).trans (out_vals m c t h1 (i 0) hi0).2

/-! ## Where the output blocks sit in their arrays -/

/-- The first output window's block index at point t: (batch, 0, 0). -/
theorem out1_index : ∀ t : Fin cfg0.N, win0_1.index t (0 : Fin 3) = t.val / 8 ∧ win0_1.index t (1 : Fin 3) = 0
    ∧ win0_1.index t (2 : Fin 3) = 0 :=
  (by decide +kernel : ∀ t : Fin grid0.N, _)

/-- The second output window's block index at point t: (batch, 0, 0). -/
theorem out2_index : ∀ t : Fin cfg0.N, win0_2.index t (0 : Fin 3) = t.val / 8 ∧ win0_2.index t (1 : Fin 3) = 0
    ∧ win0_2.index t (2 : Fin 3) = 0 :=
  (by decide +kernel : ∀ t : Fin grid0.N, _)

/-- What a batch's last tile writes back into the first output array is that block of `G1`. -/
theorem flushed1 (m : (ℓ : Loc nD τ sig) → Buf (Elt Ideal) ℓ) (c : Dev nD) (t : Fin cfg0.N)
    (hf : (cfg0.win 1).flush t = true) :
    (dats (F := Ideal) m 0 c).flushed 1 t = ((cfg0.win 1).blk t).view.read (Elt Ideal) (G1 (V m c main_arg0)) := by
  have h1 : t.val % 8 = 7 := (flush0_1 t).mp hf
  obtain ⟨i0, i1, i2⟩ := out1_index t
  show (cfg0.win 1).cut (grid0.coords t) ((dats m 0 c).after 1 t) = _
  rw [after0_1]
  funext j
  have j0 : (j 0).val < 1 := (j 0).isLt
  refine out1_at m c t h1 _ (((cfg0.win 1).blk t).view.emb j) ?_ ?_
  · show win0_1.index t (0 : Fin 3) * 1 + 1 * (j 0).val = t.val / 8
    rw [i0]; omega
  · show win0_1.index t (2 : Fin 3) * 2048 + 1 * (j 2).val = (j 2).val
    rw [i2]; omega

/-- What a batch's last tile writes back into the second output array is that block of `G2`. -/
theorem flushed2 (m : (ℓ : Loc nD τ sig) → Buf (Elt Ideal) ℓ) (c : Dev nD) (t : Fin cfg0.N)
    (hf : (cfg0.win 2).flush t = true) :
    (dats (F := Ideal) m 0 c).flushed 2 t = ((cfg0.win 2).blk t).view.read (Elt Ideal) (G2 (V m c main_arg0)) := by
  have h1 : t.val % 8 = 7 := (flush0_2 t).mp hf
  obtain ⟨i0, i1, i2⟩ := out2_index t
  show (cfg0.win 2).cut (grid0.coords t) ((dats m 0 c).after 2 t) = _
  rw [after0_2]
  funext j
  have j0 : (j 0).val < 1 := (j 0).isLt
  refine out2_at m c t h1 _ (((cfg0.win 2).blk t).view.emb j) ?_
  show win0_2.index t (0 : Fin 3) * 1 + 1 * (j 0).val = t.val / 8
  rw [i0]; omega

/-- An index of the first output array is in point t's block iff each coordinate is in the block's range. -/
theorem mem_blk1 (t : Fin cfg0.N) (i : S4x1x2048.Idx) :
    i ∈ ((cfg0.win 1).blk t).view.set ↔ ∀ a : Fin 3, win0_1.index t a * S1x1x2048.size a ≤ (i a).val
      ∧ (i a).val < win0_1.index t a * S1x1x2048.size a + S1x1x2048.size a := by
  show i ∈ ((View.whole main_v0_0).slice (win0_1.rect t)).set ↔ _
  rw [View.set_slice_whole, Rect.mem_set_unit]
  exact Iff.rfl

/-- An index of the second output array is in point t's block iff each coordinate is in the block's range. -/
theorem mem_blk2 (t : Fin cfg0.N) (i : S4x1x1.Idx) :
    i ∈ ((cfg0.win 2).blk t).view.set ↔ ∀ a : Fin 3, win0_2.index t a * S1x1x1.size a ≤ (i a).val
      ∧ (i a).val < win0_2.index t a * S1x1x1.size a + S1x1x1.size a := by
  show i ∈ ((View.whole main_v0_1).slice (win0_2.rect t)).set ↔ _
  rw [View.set_slice_whole, Rect.mem_set_unit]
  exact Iff.rfl

/-- Every index of the first output array lies in the block written back at its batch's last tile, point 8 b + 7. -/
theorem cover1 (i : S4x1x2048.Idx) :
    ∃ t : Fin cfg0.N, (cfg0.win 1).flush t = true ∧ i ∈ ((cfg0.win 1).blk t).view.set := by
  have h0 : (i 0).val < 4 := (i 0).isLt
  have h1 : (i 1).val < 1 := (i 1).isLt
  have h2 : (i 2).val < 2048 := (i 2).isLt
  have hN : cfg0.N = 32 := N_0
  refine ⟨⟨8 * (i 0).val + 7, by omega⟩, (flush0_1 _).mpr (by show (8 * (i 0).val + 7) % 8 = 7; omega), ?_⟩
  obtain ⟨i0, i1, i2⟩ := out1_index ⟨8 * (i 0).val + 7, by omega⟩
  rw [mem_blk1]
  intro a
  match a with
  | ⟨0, _⟩ =>
    show win0_1.index _ (0 : Fin 3) * 1 ≤ (i 0).val ∧ (i 0).val < win0_1.index _ (0 : Fin 3) * 1 + 1
    rw [i0]; show (8 * (i 0).val + 7) / 8 * 1 ≤ (i 0).val ∧ (i 0).val < (8 * (i 0).val + 7) / 8 * 1 + 1; omega
  | ⟨1, _⟩ =>
    show win0_1.index _ (1 : Fin 3) * 1 ≤ (i 1).val ∧ (i 1).val < win0_1.index _ (1 : Fin 3) * 1 + 1
    rw [i1]; omega
  | ⟨2, _⟩ =>
    show win0_1.index _ (2 : Fin 3) * 2048 ≤ (i 2).val ∧ (i 2).val < win0_1.index _ (2 : Fin 3) * 2048 + 2048
    rw [i2]; omega

/-- Every index of the second output array lies in the block written back at its batch's last tile, point 8 b + 7. -/
theorem cover2 (i : S4x1x1.Idx) :
    ∃ t : Fin cfg0.N, (cfg0.win 2).flush t = true ∧ i ∈ ((cfg0.win 2).blk t).view.set := by
  have h0 : (i 0).val < 4 := (i 0).isLt
  have h1 : (i 1).val < 1 := (i 1).isLt
  have h2 : (i 2).val < 1 := (i 2).isLt
  have hN : cfg0.N = 32 := N_0
  refine ⟨⟨8 * (i 0).val + 7, by omega⟩, (flush0_2 _).mpr (by show (8 * (i 0).val + 7) % 8 = 7; omega), ?_⟩
  obtain ⟨i0, i1, i2⟩ := out2_index ⟨8 * (i 0).val + 7, by omega⟩
  rw [mem_blk2]
  intro a
  match a with
  | ⟨0, _⟩ =>
    show win0_2.index _ (0 : Fin 3) * 1 ≤ (i 0).val ∧ (i 0).val < win0_2.index _ (0 : Fin 3) * 1 + 1
    rw [i0]; show (8 * (i 0).val + 7) / 8 * 1 ≤ (i 0).val ∧ (i 0).val < (8 * (i 0).val + 7) / 8 * 1 + 1; omega
  | ⟨1, _⟩ =>
    show win0_2.index _ (1 : Fin 3) * 1 ≤ (i 1).val ∧ (i 1).val < win0_2.index _ (1 : Fin 3) * 1 + 1
    rw [i1]; omega
  | ⟨2, _⟩ =>
    show win0_2.index _ (2 : Fin 3) * 1 ≤ (i 2).val ∧ (i 2).val < win0_2.index _ (2 : Fin 3) * 1 + 1
    rw [i2]; omega

/-! ## The arrays after the region -/

theorem final1 (m : (ℓ : Loc nD τ sig) → Buf (Elt Ideal) ℓ) (c : Dev nD) :
    (dats (F := Ideal) m 0 c).arrAt 1 cfg0.N = G1 (V m c main_arg0) :=
  (dats (F := Ideal) m 0 c).arrAt_eq_of_cover 1 (G1 (V m c main_arg0)) (flushed1 m c) cover1

theorem final2 (m : (ℓ : Loc nD τ sig) → Buf (Elt Ideal) ℓ) (c : Dev nD) :
    (dats (F := Ideal) m 0 c).arrAt 2 cfg0.N = G2 (V m c main_arg0) :=
  (dats (F := Ideal) m 0 c).arrAt_eq_of_cover 2 (G2 (V m c main_arg0)) (flushed2 m c) cover2

end Cert.KernelArrays

end
-- ==== Proof.KernelValue.lean ====
/- The kernel program's run with its two results named: after the region the host squares and adds the entries of the
   first output array, subtracts the sum of the second, and passes that one number through the scalar tail. -/
import proofs.«173527_j26010321945257_2_alg».proof.Proof.Gen.KernelIdeal.Frame
import proofs.«173527_j26010321945257_2_alg».proof.Proof.Spec
import proofs.«173527_j26010321945257_2_alg».proof.Proof.KernelArrays

noncomputable section

namespace Cert.KernelValue

open Idealize.ShloMosaic Idealize.ShloMosaic.TcCoe Idealize.SL.Sem Cert.KernelIdeal Cert.KernelIdeal.Gen

/-! ## The number the scalar tail starts from -/

open Cert.KernelArrays in
/-- The host's two sums run over every index of their operand and start from zero, so at the ideal values the
    difference of the sum of the squared entries of the first array and the sum of the second is the kernel's core
    number: the sum over (b, d) of vecSum² minus the sum over b of diagSum. -/
theorem core_arr (h : Cert.Spec.SH.Idx → EReal) :
    subf (F := Ideal)
        (Host.reduceAdd (F := Ideal) (mulf (F := Ideal) (G1 h) (G1 h)) (constant (F := Ideal) S_ .f32 0x00000000#32)
          reducesTo_S4x1x2048_S_d0_1_2 h_S_)
        (Host.reduceAdd (F := Ideal) (G2 h) (constant (F := Ideal) S_ .f32 0x00000000#32)
          reducesTo_S4x1x1_S_d0_1_2 h_S_)
      = fun _ => Cert.Spec.kerCore h := by
  funext i
  rw [ValueIdx.subf_apply]
  simp only [Host.reduceAdd, Ideal.hostReduceAdd_def]
  rw [Ideal.hostReduceAdd_total _ (fun b => b.elim0), Ideal.hostReduceAdd_total _ (fun b => b.elim0)]
  simp only [ValueIdx.constant_apply, Ideal.ofBits_zero_f32, zero_add, ValueIdx.mulf_apply]
  rfl

/-! ## What the operations after the region read -/

section Reading

open Cert.KernelArrays

variable (m : (ℓ : Loc nD τ sig) → Buf (Elt Ideal) ℓ) (c : Dev nD)

/-- The core's buffers as the operations after the region find them: the region's three arrays as it left them,
    every other buffer as launched. -/
abbrev regionLeaves : Valuation τ sig (Elt Ideal) :=
  Pipeline.withArrays (cfgs 0).spec c (V0 m c) (fun w => (dats (F := Ideal) m 0 c).arrAt w (cfgs 0).N)

/-- The first output array: per batch, the sum of the scaled rows. -/
theorem regionLeaves_out1 : (regionLeaves m c (Proc.devRef .tc main_v0_0) : Vec Ideal S4x1x2048 .f32)
    = G1 (m ((c.tc : Thread nD τ).loc main_arg0)) :=
  (Pipeline.withArrays_arr spec0 launch0.win.arr_inj c _ _ 1).trans (final1 m c)

/-- The second output array: per batch, the sum of the squared lengths over the squared divisors. -/
theorem regionLeaves_out2 : (regionLeaves m c (Proc.devRef .tc main_v0_1) : Vec Ideal S4x1x1 .f32)
    = G2 (m ((c.tc : Thread nD τ).loc main_arg0)) :=
  (Pipeline.withArrays_arr spec0 launch0.win.arr_inj c _ _ 2).trans (final2 m c)

/-- The two scalar arguments are none of the region's arrays: they are as launched. -/
theorem regionLeaves_arg1 : regionLeaves m c (Proc.devRef .tc main_arg1) = m ((c.tc : Thread nD τ).loc main_arg1) :=
  (Pipeline.withArrays_of_ne _ c (V0 m c) _ main_arg1
    (by exact (by decide : ∀ w, Pipeline.arrRef spec0 w ≠ main_arg1))).trans (V_main_arg1 m c)

theorem regionLeaves_arg2 : regionLeaves m c (Proc.devRef .tc main_arg2) = m ((c.tc : Thread nD τ).loc main_arg2) :=
  (Pipeline.withArrays_of_ne _ c (V0 m c) _ main_arg2
    (by exact (by decide : ∀ w, Pipeline.arrRef spec0 w ≠ main_arg2))).trans (V_main_arg2 m c)

/-- The second result: the core number over the constant 4 · 4096 · 4095. -/
theorem read_v5 :
    Pipeline.afterTail₀ cfgs (dats (F := Ideal) m) 0 (V0 m) [hostOps1] c main_v5
      = Cert.Spec.tailConc (fun _ => Cert.Spec.kerCore (m ((c.tc : Thread nD τ).loc main_arg0))) := by
  unfold Pipeline.afterTail₀
  show StableHlo.after hostOps1 (regionLeaves m c) (Proc.devRef .tc main_v5) = _
  after_results
  rw [regionLeaves_out1 m c, regionLeaves_out2 m c, core_arr]
  rfl

/-- The first result: the rest of the scalar tail applied to the second result and the two scalar arguments. The tail
    itself stays closed: only the number it starts from is rewritten. -/
theorem read_v11 :
    Pipeline.afterTail₀ cfgs (dats (F := Ideal) m) 0 (V0 m) [hostOps1] c main_v11
      = Cert.Spec.tailLam (fun _ => Cert.Spec.kerCore (m ((c.tc : Thread nD τ).loc main_arg0)))
          (m ((c.tc : Thread nD τ).loc main_arg1)) (m ((c.tc : Thread nD τ).loc main_arg2)) := by
  unfold Pipeline.afterTail₀
  show StableHlo.after hostOps1 (regionLeaves m c) (Proc.devRef .tc main_v11) = _
  after_results
  rw [regionLeaves_out1 m c, regionLeaves_out2 m c, regionLeaves_arg1 m c, regionLeaves_arg2 m c, core_arr]
  rfl

end Reading

/-! ## The run -/

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v11)
          = Cert.Spec.tailLam (fun _ => Cert.Spec.kerCore (m ((c.tc : Thread nD τ).loc main_arg0)))
              (m ((c.tc : Thread nD τ).loc main_arg1)) (m ((c.tc : Thread nD τ).loc main_arg2))
      ∧ r.2.mem ((c.tc : Thread nD τ).loc main_v5)
          = Cert.Spec.tailConc (fun _ => Cert.Spec.kerCore (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  -- the two results are buffers outside the region's arrays, read through the operations after the region; the
  -- argument array is the region's input and ends as launched; the two scalars no operation writes
  (θ_run (defs (F := Ideal)) _ _).mono (fun r h c =>
    ⟨((h c).2 main_v11 (Pipeline.mem_restRefs_of main_v11 (by decide) (by decide))).trans (read_v11 m c),
     ((h c).2 main_v5 (Pipeline.mem_restRefs_of main_v5 (by decide) (by decide))).trans (read_v5 m c),
     ((h c).1 0).trans (((dats (F := Ideal) m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelValue

end
-- ==== Proof.RefValue.lean ====
/-
  The reference program's run with its two results named through the specification.

  The reference divides every row (b, i, ·) of the argument by max (‖row‖, ε), forms all inner products of the scaled
  rows of one batch, adds them all up, and subtracts the sum of the diagonal ones, which it picks out by a mask
  "row number = column number" laid over the sum over the batches. Read entry by entry this is the specification's
  refTotal - refDiag: an entry of the scaled array is `unit`, an entry of the product array is `gram`, the mask's
  comparison of two 32-bit row numbers below 4096 is the comparison of the numbers themselves. The two results are
  the shared scalar tail of that one number.
-/
import proofs.«173527_j26010321945257_2_alg».proof.Proof.Gen.ReferenceIdeal.Run
import proofs.«173527_j26010321945257_2_alg».proof.Proof.Gen.ReferenceIdeal.Read
import proofs.«173527_j26010321945257_2_alg».proof.Proof.Spec

noncomputable section

namespace Cert.RefValue

open Idealize.ShloMosaic Idealize.ShloMosaic.TcCoe Idealize.SL.Sem Cert.ReferenceIdeal Cert.ReferenceIdeal.Gen
open Idealize.ShloMosaic.ValueIdx Cert.ReferenceIdeal.Read

/-- The reference's scaled array at (b, i, d) is the specification's scaled row. -/
theorem scaled_eq (x0 : FVec Ideal S4x4096x2048 .f32) (b : Fin 4) (i : Fin 4096) (d : Fin 2048) :
    val_main_v4 (F := Ideal) x0 (ix3 b i d) = Cert.Spec.unit x0 b i d := by
  have e : ∀ k : Fin 2048, idx_main_call0_v1 (idx_main_call0_v2 (idx_main_v3 (ix3 b i d))) k = ix3 b i k := fun k =>
    funext fun a => Fin.ext (by match a with | ⟨0, _⟩ => rfl | ⟨1, _⟩ => rfl | ⟨2, _⟩ => rfl)
  rw [val_main_v4_apply, val_main_v3_apply, val_main_v2_apply, val_main_v0_apply, val_main_call0_v2_apply,
    val_main_call0_v1_apply, val_main_v1_apply, val_main_cst_apply, val_main_call0_cst_apply]
  simp only [val_main_call0_v0_apply, e, Ideal.hostDivf_def, Ideal.hostUnary_sqrt_def, Ideal.maximumf_def, Ideal.mulf_def,
    Ideal.ofBits_def, Ideal.ofBits_zero_f32, zero_add]
  rfl

/-- An entry of the reference's product array is the inner product of two scaled rows. -/
theorem gram_eq (x0 : FVec Ideal S4x4096x2048 .f32) (j : S4x4096x4096.Idx) :
    val_main_v5 (F := Ideal) x0 j = Cert.Spec.gram x0 (j 0) (j 1) (j 2) := by
  have el : ∀ k : Fin 2048, lidx_main_v5 j k = @ix3 4 4096 2048 (j 0) (j 1) k := fun k =>
    funext fun a => Fin.ext (by match a with | ⟨0, _⟩ => rfl | ⟨1, _⟩ => rfl | ⟨2, _⟩ => rfl)
  have er : ∀ k : Fin 2048, ridx_main_v5 j k = @ix3 4 4096 2048 (j 0) (j 2) k := fun k =>
    funext fun a => Fin.ext (by match a with | ⟨0, _⟩ => rfl | ⟨1, _⟩ => rfl | ⟨2, _⟩ => rfl)
  rw [val_main_v5_apply]
  unfold Cert.Spec.gram
  exact Finset.sum_congr rfl fun k _ => by
    rw [el, er]
    exact congrArg₂ (· * ·) (scaled_eq x0 (j 0) (j 1) k) (scaled_eq x0 (j 0) (j 2) k)

/-- The sum of all entries of the product array. -/
theorem total_eq (x0 : FVec Ideal S4x4096x2048 .f32) :
    ∑ j : S4x4096x4096.Idx, val_main_v5 (F := Ideal) x0 j = Cert.Spec.refTotal x0 := by
  unfold Cert.Spec.refTotal
  exact Finset.sum_congr rfl fun j _ => gram_eq x0 j

/-- Two row numbers below 4096 are equal exactly when their 32-bit words are. -/
theorem word_eq_iff (a b : Fin 4096) : BitVec.ofNat 32 a.val = BitVec.ofNat 32 b.val ↔ a.val = b.val := by
  constructor
  · intro h
    have h' := congrArg BitVec.toNat h
    rw [BitVec.toNat_ofNat, BitVec.toNat_ofNat, Nat.mod_eq_of_lt (by omega), Nat.mod_eq_of_lt (by omega)] at h'
    exact h'
  · intro h; rw [h]

/-- The masked array: the sum over the batches on the diagonal, zero off it. -/
theorem masked_eq (x0 : FVec Ideal S4x4096x2048 .f32) (j : S4096x4096.Idx) :
    val_main_v11 (F := Ideal) x0 j
      = if (j 0).val = (j 1).val then ∑ b : Fin 4, Cert.Spec.gram x0 b (j 0) (j 1) else 0 := by
  rw [val_main_v11_apply, val_main_v9_apply, val_main_v7_apply, val_main_v8_apply]
  by_cases h : (j 0).val = (j 1).val
  · rw [if_pos h, IntOp.cmpi_eq.2 ((word_eq_iff (j 0) (j 1)).2 h), select_one, val_main_v6_apply, val_main_cst_0_apply]
    simp only [Ideal.ofBits_def, Ideal.ofBits_zero_f32, zero_add]
    exact Finset.sum_congr rfl fun k _ => gram_eq x0 (idx_main_v6 j k)
  · have hc : IntOp.cmpi .eq (BitVec.ofNat 32 (j 0).val) (BitVec.ofNat 32 (j 1).val) = 0#1 :=
      eq_zero_of_ne_one fun hc => h ((word_eq_iff (j 0) (j 1)).1 (IntOp.cmpi_eq.1 hc))
    rw [if_neg h, hc, select_zero, val_main_v10_apply, val_main_cst_1_apply]
    simp only [Ideal.ofBits_def, Ideal.ofBits_zero_f32]

/-- The sum of the masked array. -/
theorem diag_eq (x0 : FVec Ideal S4x4096x2048 .f32) :
    ∑ j : S4096x4096.Idx, val_main_v11 (F := Ideal) x0 j = Cert.Spec.refDiag x0 := by
  unfold Cert.Spec.refDiag
  exact Finset.sum_congr rfl fun j _ => masked_eq x0 j

/-- The reference's difference of sums is the specification's. -/
theorem core_eq (x0 : FVec Ideal S4x4096x2048 .f32) :
    Cert.ReferenceIdeal.Read.val_main_v14 (F := Ideal) x0 = fun _ => Cert.Spec.refCore x0 := by
  funext i
  rw [val_main_v14_apply, val_main_v13_apply, val_main_v12_apply, val_main_cst_3_apply, val_main_cst_2_apply]
  simp only [Ideal.subf_def, Ideal.ofBits_def, Ideal.ofBits_zero_f32, zero_add]
  rw [total_eq, diag_eq]
  rfl

/-- The first result: the scalar tail applied to the specification's core. -/
theorem lam_eq (x0 : FVec Ideal S4x4096x2048 .f32) (x1 x2 : FVec Ideal S_ .f32) :
    val_main_v21 (F := Ideal) x0 x1 x2 = Cert.Spec.tailLam (fun _ => Cert.Spec.refCore x0) x1 x2 := by
  rw [← core_eq]; rfl

/-- The second result: the core over the number of off-diagonal pairs. -/
theorem conc_eq (x0 : FVec Ideal S4x4096x2048 .f32) :
    val_main_v15 (F := Ideal) x0 = Cert.Spec.tailConc (fun _ => Cert.Spec.refCore x0) := by
  rw [← core_eq]; rfl

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v21)
          = Cert.Spec.tailLam (fun _ => Cert.Spec.refCore (m ((c.tc : Thread nD τ).loc main_arg0)))
              (m ((c.tc : Thread nD τ).loc main_arg1)) (m ((c.tc : Thread nD τ).loc main_arg2))
      ∧ r.2.mem ((c.tc : Thread nD τ).loc main_v15)
          = Cert.Spec.tailConc (fun _ => Cert.Spec.refCore (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run (defs (F := Ideal)) _ _).mono (fun _ h c => ⟨(h c).1.trans ?_, (h c).2.1.trans ?_, (h c).2.2⟩)
    (Cert.ReferenceIdeal.Value.run (F := Ideal) m ρ)
  · exact (val_main_v21_eq _ _ _).trans (lam_eq _ _ _)
  · exact (val_main_v15_eq _).trans (conc_eq _)

end Cert.RefValue

end
-- ==== Proof.lean ====
/-
  The kernel adds up, batch by batch, the rows of h scaled to unit length (and the rows' squared lengths over the squared
  divisors), and the host then squares and sums; the reference forms every pairwise inner product of the scaled rows, sums
  them all, and subtracts the diagonal.  Both feed the resulting number to the same scalar tail.

  The two numbers agree because, over the reals,
    ∑ i, ∑ j, ⟨u i, u j⟩ = ∑ d, (∑ i, u i d)²     and     ⟨x / c, x / c⟩ = ⟨x, x⟩ / c²   (c ≠ 0),
  and on finite inputs every quantity involved is a real number (the divisor is at least ε > 0): Proof/CoreEq.lean.
  What each program's results are, as formulas of the argument array (Proof/Spec.lean): Proof/KernelValue.lean for the
  kernel, Proof/RefValue.lean for the reference; that the precondition makes every entry real: Proof/Finite.lean.
-/
import proofs.«173527_j26010321945257_2_alg».proof.Defs
import proofs.«173527_j26010321945257_2_alg».proof.Proof.Gen.Kernel
import proofs.«173527_j26010321945257_2_alg».proof.Proof.Gen.Kernel.Skeleton
import proofs.«173527_j26010321945257_2_alg».proof.Proof.Gen.Kernel.Launch
import proofs.«173527_j26010321945257_2_alg».proof.Proof.Gen.Kernel.Points
import proofs.«173527_j26010321945257_2_alg».proof.Proof.Gen.Kernel.Frame
import proofs.«173527_j26010321945257_2_alg».proof.Proof.Gen.KernelIdeal
import proofs.«173527_j26010321945257_2_alg».proof.Proof.Gen.KernelIdeal.Skeleton
import proofs.«173527_j26010321945257_2_alg».proof.Proof.Gen.KernelIdeal.Launch
import proofs.«173527_j26010321945257_2_alg».proof.Proof.Gen.KernelIdeal.Points
import proofs.«173527_j26010321945257_2_alg».proof.Proof.Gen.KernelIdeal.Frame
import proofs.«173527_j26010321945257_2_alg».proof.Proof.Gen.ReferenceIdeal
import proofs.«173527_j26010321945257_2_alg».proof.Proof.Gen.ReferenceIdeal.Run
import proofs.«173527_j26010321945257_2_alg».proof.Proof.Gen.ReferenceIdeal.Read
import proofs.«173527_j26010321945257_2_alg».proof.Proof.Gen.Pre_finite_inputs
import proofs.«173527_j26010321945257_2_alg».proof.Proof.Spec
import proofs.«173527_j26010321945257_2_alg».proof.Proof.CoreEq
import proofs.«173527_j26010321945257_2_alg».proof.Proof.Finite
import proofs.«173527_j26010321945257_2_alg».proof.Proof.KernelValue
import proofs.«173527_j26010321945257_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the scalar tail applied to one number: the kernel's (its run), the reference's (its run) — and on
    the finite inputs the precondition grants, the two numbers are equal. -/
theorem algebraic : Cert.algebraic_KernelIdeal_ReferenceIdeal := by
  intro m ρ m' ρ' hpre hagree
  refine ⟨_, _, Cert.KernelValue.run m ρ, ?_⟩
  refine (θ_run Cert.ReferenceIdeal.defs _ _).mono (fun _ h c => ?_) (Cert.RefValue.run m' ρ')
  obtain ⟨h1, h2, h3⟩ := h c
  have hfin := Cert.Finite.of_pre _ _ _ (hpre c)
  have hcore := Cert.CoreEq.core_eq _ hfin
  refine ⟨?_, ?_, h3⟩
  · rw [h1, (hagree c).1, (hagree c).2.1, (hagree c).2.2, ← hcore]
  · rw [h2, (hagree c).1, ← hcore]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
